-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S8x32x9x64x64 : Shape := ⟨5, ![8, 32, 9, 64, 64]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S8x32x9x64x64 : S_.BroadcastsInDim S8x32x9x64x64 (![] : Fin 0 → Fin S8x32x9x64x64.rank)
  reducesTo_S8x32x9x64x64_S_d0_1_2_3_4 : S8x32x9x64x64.ReducesTo [0, 1, 2, 3, 4] S_

variable [Facts]

def fn {F : FTy → Type} [FloatOps F] (main_arg0 : FVec F S8x256x64x64 .f32) (main_arg1 : FVec F S8x32x9x64x64 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x32x9x64x64 .f32 := Host.absf main_arg1
  let main_cst_0 : FVec F S_ .f32 := constant S_ .f32 0x7F800000#32
  let main_v5 : FVec F S8x32x9x64x64 .f32 := broadcastInDim S8x32x9x64x64 ![] bcast_S_S8x32x9x64x64 main_cst_0
  let main_v6 : IVec S8x32x9x64x64 1 := cmpf .olt main_v4 main_v5
  let main_c_1 : IVec S_ 1 := constantI S_ 1 1#1
  let main_v7 : IVec S_ 1 := (fun x v => Host.reduce IntOp.andi x v reducesTo_S8x32x9x64x64_S_d0_1_2_3_4 h_S_) main_v6 main_c_1
  let main_v8 : IVec S_ 1 := andi main_v3 main_v7
  main_v8
-- ==== Kernel.lean ====
abbrev S8x256x64x64 : Shape := ⟨4, ![8, 256, 64, 64]⟩
abbrev S8x32x9x64x64 : Shape := ⟨5, ![8, 32, 9, 64, 64]⟩
abbrev S1x32x64x64 : Shape := ⟨4, ![1, 32, 64, 64]⟩
abbrev S1x32x9x64x64 : Shape := ⟨5, ![1, 32, 9, 64, 64]⟩
abbrev S32x66x66 : Shape := ⟨3, ![32, 66, 66]⟩
abbrev S32x64x64 : Shape := ⟨3, ![32, 64, 64]⟩
abbrev S1x32x1x64x64 : Shape := ⟨5, ![1, 32, 1, 64, 64]⟩

abbrev nBuf : Space → Nat
  | .hbm => 3
  | .vmem => 7
  | .smem => 0
  | _ => 0

abbrev bufTy : (tb : Table) → Fin (tcTables nBuf tb) → BufTy
  | .hbm, ⟨0, _⟩ => ⟨S8x256x64x64, .f32⟩
  | .hbm, ⟨1, _⟩ => ⟨S8x32x9x64x64, .f32⟩
  | .hbm, ⟨2, _⟩ => ⟨S8x256x64x64, .f32⟩
  | .local _ .vmem, ⟨0, _⟩ => ⟨S1x32x64x64, .f32⟩
  | .local _ .vmem, ⟨1, _⟩ => ⟨S1x32x64x64, .f32⟩
  | .local _ .vmem, ⟨2, _⟩ => ⟨S1x32x9x64x64, .f32⟩
  | .local _ .vmem, ⟨3, _⟩ => ⟨S1x32x9x64x64, .f32⟩
  | .local _ .vmem, ⟨4, _⟩ => ⟨S1x32x64x64, .f32⟩
  | .local _ .vmem, ⟨5, _⟩ => ⟨S1x32x64x64, .f32⟩
  | .local _ .vmem, ⟨6, _⟩ => ⟨S32x66x66, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x9x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S32x66x66_S32x66x66_0_0_0 : ∀ a, (![0, 0, 0] : Fin 3 → Nat) a + S32x66x66.size a ≤ S32x66x66.size a
  h_S32x66x66 : 0 < S32x66x66.numel
  shapeCasts_S32x66x66_S32x66x66 : S32x66x66.ShapeCasts S32x66x66
  inb_S1x32x64x64_S1x32x64x64_0_0_0_0 : ∀ a, (![0, 0, 0, 0] : Fin 4 → Nat) a + S1x32x64x64.size a ≤ S1x32x64x64.size a
  h_S1x32x64x64 : 0 < S1x32x64x64.numel
  shapeCasts_S1x32x64x64_S32x64x64 : S1x32x64x64.ShapeCasts S32x64x64
  inb_S32x66x66_S32x64x64_0_1_1 : ∀ a, (![0, 1, 1] : Fin 3 → Nat) a + S32x64x64.size a ≤ S32x66x66.size a
  h_S32x64x64 : 0 < S32x64x64.numel
  shapeCasts_S32x64x64_S32x64x64 : S32x64x64.ShapeCasts S32x64x64
  inb_S32x66x66_S32x64x64_0_0_0 : ∀ a, (![0, 0, 0] : Fin 3 → Nat) a + S32x64x64.size a ≤ S32x66x66.size a
  inb_S1x32x9x64x64_S1x32x1x64x64_0_0_0_0_0 : ∀ a, (![0, 0, 0, 0, 0] : Fin 5 → Nat) a + S1x32x1x64x64.size a ≤ S1x32x9x64x64.size a
  h_S1x32x1x64x64 : 0 < S1x32x1x64x64.numel
  shapeCasts_S1x32x1x64x64_S32x64x64 : S1x32x1x64x64.ShapeCasts S32x64x64
  inb_S32x66x66_S32x64x64_0_0_1 : ∀ a, (![0, 0, 1] : Fin 3 → Nat) a + S32x64x64.size a ≤ S32x66x66.size a
  inb_S1x32x9x64x64_S1x32x1x64x64_0_0_1_0_0 : ∀ a, (![0, 0, 1, 0, 0] : Fin 5 → Nat) a + S1x32x1x64x64.size a ≤ S1x32x9x64x64.size a
  inb_S32x66x66_S32x64x64_0_0_2 : ∀ a, (![0, 0, 2] : Fin 3 → Nat) a + S32x64x64.size a ≤ S32x66x66.size a
  inb_S1x32x9x64x64_S1x32x1x64x64_0_0_2_0_0 : ∀ a, (![0, 0, 2, 0, 0] : Fin 5 → Nat) a + S1x32x1x64x64.size a ≤ S1x32x9x64x64.size a
  inb_S32x66x66_S32x64x64_0_1_0 : ∀ a, (![0, 1, 0] : Fin 3 → Nat) a + S32x64x64.size a ≤ S32x66x66.size a
  inb_S1x32x9x64x64_S1x32x1x64x64_0_0_3_0_0 : ∀ a, (![0, 0, 3, 0, 0] : Fin 5 → Nat) a + S1x32x1x64x64.size a ≤ S1x32x9x64x64.size a
  inb_S1x32x9x64x64_S1x32x1x64x64_0_0_4_0_0 : ∀ a, (![0, 0, 4, 0, 0] : Fin 5 → Nat) a + S1x32x1x64x64.size a ≤ S1x32x9x64x64.size a
  inb_S32x66x66_S32x64x64_0_1_2 : ∀ a, (![0, 1, 2] : Fin 3 → Nat) a + S32x64x64.size a ≤ S32x66x66.size a
  inb_S1x32x9x64x64_S1x32x1x64x64_0_0_5_0_0 : ∀ a, (![0, 0, 5, 0, 0] : Fin 5 → Nat) a + S1x32x1x64x64.size a ≤ S1x32x9x64x64.size a
  inb_S32x66x66_S32x64x64_0_2_0 : ∀ a, (![0, 2, 0] : Fin 3 → Nat) a + S32x64x64.size a ≤ S32x66x66.size a
  inb_S1x32x9x64x64_S1x32x1x64x64_0_0_6_0_0 : ∀ a, (![0, 0, 6, 0, 0] : Fin 5 → Nat) a + S1x32x1x64x64.size a ≤ S1x32x9x64x64.size a
  inb_S32x66x66_S32x64x64_0_2_1 : ∀ a, (![0, 2, 1] : Fin 3 → Nat) a + S32x64x64.size a ≤ S32x66x66.size a
  inb_S1x32x9x64x64_S1x32x1x64x64_0_0_7_0_0 : ∀ a, (![0, 0, 7, 0, 0] : Fin 5 → Nat) a + S1x32x1x64x64.size a ≤ S1x32x9x64x64.size a
  inb_S32x66x66_S32x64x64_0_2_2 : ∀ a, (![0, 2, 2] : Fin 3 → Nat) a + S32x64x64.size a ≤ S32x66x66.size a
  inb_S1x32x9x64x64_S1x32x1x64x64_0_0_8_0_0 : ∀ a, (![0, 0, 8, 0, 0] : Fin 5 → Nat) a + S1x32x1x64x64.size a ≤ S1x32x9x64x64.size a
  shapeCasts_S32x64x64_S1x32x64x64 : S32x64x64.ShapeCasts S1x32x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x64.size a ≤ S8x256x64x64.size a
  hwx0_0 : ∀ i : grid0.Coords, EltTy.bits .f32 = 32 ∨ (Rect.block (s := S8x256x64x64) S1x32x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x9x64x64.size a ≤ S8x32x9x64x64.size a
  hwx0_1 : ∀ i : grid0.Coords, EltTy.bits .f32 = 32 ∨ (Rect.block (s := S8x32x9x64x64) S1x32x9x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x64x64.size a ≤ S8x256x64x64.size a
  hwx0_2 : ∀ i : grid0.Coords, EltTy.bits .f32 = 32 ∨ (Rect.block (s := S8x256x64x64) S1x32x64x64.size (cc0_transform_2 i) (hinb0_2 i)).WholeWords (EltTy.packing .f32)

variable [Facts₀]

abbrev win0_0 : Pipeline.Window sig grid0 :=
  Pipeline.Window.ofSpec (Memref.whole main_arg0) S1x32x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x9x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S8x32x9x64x64 : Shape := ⟨5, ![8, 32, 9, 64, 64]⟩
abbrev S_ : Shape := ⟨0, ![]⟩
abbrev S8x256x66x66 : Shape := ⟨4, ![8, 256, 66, 66]⟩
abbrev S8x8x32x64x64 : Shape := ⟨5, ![8, 8, 32, 64, 64]⟩
abbrev S8x32x1x64x64 : Shape := ⟨5, ![8, 32, 1, 64, 64]⟩
abbrev S8x32x64x64 : Shape := ⟨4, ![8, 32, 64, 64]⟩
abbrev S8x1x32x64x64 : Shape := ⟨5, ![8, 1, 32, 64, 64]⟩

abbrev nBuf : Space → Nat
  | .hbm => 80
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x32x9x64x64, .f32⟩
  | .hbm, ⟨2, _⟩ => ⟨S_, .i32⟩
  | .hbm, ⟨3, _⟩ => ⟨S_, .f32⟩
  | .hbm, ⟨4, _⟩ => ⟨S8x256x66x66, .f32⟩
  | .hbm, ⟨5, _⟩ => ⟨S_, .f32⟩
  | .hbm, ⟨6, _⟩ => ⟨S8x8x32x64x64, .f32⟩
  | .hbm, ⟨7, _⟩ => ⟨S8x256x64x64, .f32⟩
  | .hbm, ⟨8, _⟩ => ⟨S8x8x32x64x64, .f32⟩
  | .hbm, ⟨9, _⟩ => ⟨S8x32x1x64x64, .f32⟩
  | .hbm, ⟨10, _⟩ => ⟨S8x32x64x64, .f32⟩
  | .hbm, ⟨11, _⟩ => ⟨S8x1x32x64x64, .f32⟩
  | .hbm, ⟨12, _⟩ => ⟨S8x8x32x64x64, .f32⟩
  | .hbm, ⟨13, _⟩ => ⟨S8x8x32x64x64, .f32⟩
  | .hbm, ⟨14, _⟩ => ⟨S8x8x32x64x64, .f32⟩
  | .hbm, ⟨15, _⟩ => ⟨S8x256x64x64, .f32⟩
  | .hbm, ⟨16, _⟩ => ⟨S8x8x32x64x64, .f32⟩
  | .hbm, ⟨17, _⟩ => ⟨S8x32x1x64x64, .f32⟩
  | .hbm, ⟨18, _⟩ => ⟨S8x32x64x64, .f32⟩
  | .hbm, ⟨19, _⟩ => ⟨S8x1x32x64x64, .f32⟩
  | .hbm, ⟨20, _⟩ => ⟨S8x8x32x64x64, .f32⟩
  | .hbm, ⟨21, _⟩ => ⟨S8x8x32x64x64, .f32⟩
  | .hbm, ⟨22, _⟩ => ⟨S8x8x32x64x64, .f32⟩
  | .hbm, ⟨23, _⟩ => ⟨S8x256x64x64, .f32⟩
  | .hbm, ⟨24, _⟩ => ⟨S8x8x32x64x64, .f32⟩
  | .hbm, ⟨25, _⟩ => ⟨S8x32x1x64x64, .f32⟩
  | .hbm, ⟨26, _⟩ => ⟨S8x32x64x64, .f32⟩
  | .hbm, ⟨27, _⟩ => ⟨S8x1x32x64x64, .f32⟩
  | .hbm, ⟨28, _⟩ => ⟨S8x8x32x64x64, .f32⟩
  | .hbm, ⟨29, _⟩ => ⟨S8x8x32x64x64, .f32⟩
  | .hbm, ⟨30, _⟩ => ⟨S8x8x32x64x64, .f32⟩
  | .hbm, ⟨31, _⟩ => ⟨S8x256x64x64, .f32⟩
  | .hbm, ⟨32, _⟩ => ⟨S8x8x32x64x64, .f32⟩
  | .hbm, ⟨33, _⟩ => ⟨S8x32x1x64x64, .f32⟩
  | .hbm, ⟨34, _⟩ => ⟨S8x32x64x64, .f32⟩
  | .hbm, ⟨35, _⟩ => ⟨S8x1x32x64x64, .f32⟩
  | .hbm, ⟨36, _⟩ => ⟨S8x8x32x64x64, .f32⟩
  | .hbm, ⟨37, _⟩ => ⟨S8x8x32x64x64, .f32⟩
  | .hbm, ⟨38, _⟩ => ⟨S8x8x32x64x64, .f32⟩
  | .hbm, ⟨39, _⟩ => ⟨S8x256x64x64, .f32⟩
  | .hbm, ⟨40, _⟩ => ⟨S8x8x32x64x64, .f32⟩
  | .hbm, ⟨41, _⟩ => ⟨S8x32x1x64x64, .f32⟩
  | .hbm, ⟨42, _⟩ => ⟨S8x32x64x64, .f32⟩
  | .hbm, ⟨43, _⟩ => ⟨S8x1x32x64x64, .f32⟩
  | .hbm, ⟨44, _⟩ => ⟨S8x8x32x64x64, .f32⟩
  | .hbm, ⟨45, _⟩ => ⟨S8x8x32x64x64, .f32⟩
  | .hbm, ⟨46, _⟩ => ⟨S8x8x32x64x64, .f32⟩
  | .hbm, ⟨47, _⟩ => ⟨S8x256x64x64, .f32⟩
  | .hbm, ⟨48, _⟩ => ⟨S8x8x32x64x64, .f32⟩
  | .hbm, ⟨49, _⟩ => ⟨S8x32x1x64x64, .f32⟩
  | .hbm, ⟨50, _⟩ => ⟨S8x32x64x64, .f32⟩
  | .hbm, ⟨51, _⟩ => ⟨S8x1x32x64x64, .f32⟩
  | .hbm, ⟨52, _⟩ => ⟨S8x8x32x64x64, .f32⟩
  | .hbm, ⟨53, _⟩ => ⟨S8x8x32x64x64, .f32⟩
  | .hbm, ⟨54, _⟩ => ⟨S8x8x32x64x64, .f32⟩
  | .hbm, ⟨55, _⟩ => ⟨S8x256x64x64, .f32⟩
  | .hbm, ⟨56, _⟩ => ⟨S8x8x32x64x64, .f32⟩
  | .hbm, ⟨57, _⟩ => ⟨S8x32x1x64x64, .f32⟩
  | .hbm, ⟨58, _⟩ => ⟨S8x32x64x64, .f32⟩
  | .hbm, ⟨59, _⟩ => ⟨S8x1x32x64x64, .f32⟩
  | .hbm, ⟨60, _⟩ => ⟨S8x8x32x64x64, .f32⟩
  | .hbm, ⟨61, _⟩ => ⟨S8x8x32x64x64, .f32⟩
  | .hbm, ⟨62, _⟩ => ⟨S8x8x32x64x64, .f32⟩
  | .hbm, ⟨63, _⟩ => ⟨S8x256x64x64, .f32⟩
  | .hbm, ⟨64, _⟩ => ⟨S8x8x32x64x64, .f32⟩
  | .hbm, ⟨65, _⟩ => ⟨S8x32x1x64x64, .f32⟩
  | .hbm, ⟨66, _⟩ => ⟨S8x32x64x64, .f32⟩
  | .hbm, ⟨67, _⟩ => ⟨S8x1x32x64x64, .f32⟩
  | .hbm, ⟨68, _⟩ => ⟨S8x8x32x64x64, .f32⟩
  | .hbm, ⟨69, _⟩ => ⟨S8x8x32x64x64, .f32⟩
  | .hbm, ⟨70, _⟩ => ⟨S8x8x32x64x64, .f32⟩
  | .hbm, ⟨71, _⟩ => ⟨S8x256x64x64, .f32⟩
  | .hbm, ⟨72, _⟩ => ⟨S8x8x32x64x64, .f32⟩
  | .hbm, ⟨73, _⟩ => ⟨S8x32x1x64x64, .f32⟩
  | .hbm, ⟨74, _⟩ => ⟨S8x32x64x64, .f32⟩
  | .hbm, ⟨75, _⟩ => ⟨S8x1x32x64x64, .f32⟩
  | .hbm, ⟨76, _⟩ => ⟨S8x8x32x64x64, .f32⟩
  | .hbm, ⟨77, _⟩ => ⟨S8x8x32x64x64, .f32⟩
  | .hbm, ⟨78, _⟩ => ⟨S8x8x32x64x64, .f32⟩
  | .hbm, ⟨79, _⟩ => ⟨S8x256x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩

abbrev nD : Nat := 1
abbrev τ : Topo := Topo.v7x

variable {F : FTy → Type} [FloatOps F]

class Facts₀ : Prop where
  pads_S8x256x64x64_S8x256x66x66_000_000_110_110 : S8x256x64x64.Pads (![0, 0, 1, 1] : Fin 4 → Nat) ![0, 0, 1, 1] ![0, 0, 0, 0] S8x256x66x66
  h_S_ : 0 < S_.numel
  bcast_S_S8x8x32x64x64 : S_.BroadcastsInDim S8x8x32x64x64 (![] : Fin 0 → Fin S8x8x32x64x64.rank)
  slices_S8x256x66x66_S8x256x64x64_0_0_0_0 : S8x256x66x66.Slices ![0, 0, 0, 0] S8x256x64x64
  shapeCasts_S8x256x64x64_S8x8x32x64x64 : S8x256x64x64.ShapeCasts S8x8x32x64x64
  slices_S8x32x9x64x64_S8x32x1x64x64_0_0_0_0_0 : S8x32x9x64x64.Slices ![0, 0, 0, 0, 0] S8x32x1x64x64
  shapeCasts_S8x32x1x64x64_S8x32x64x64 : S8x32x1x64x64.ShapeCasts S8x32x64x64
  bcast_S8x32x64x64_S8x1x32x64x64_0_2_3_4 : S8x32x64x64.BroadcastsInDim S8x1x32x64x64 (![0, 2, 3, 4] : Fin 4 → Fin S8x1x32x64x64.rank)
  bcast_S8x1x32x64x64_S8x8x32x64x64_0_1_2_3_4 : S8x1x32x64x64.BroadcastsInDim S8x8x32x64x64 (![0, 1, 2, 3, 4] : Fin 5 → Fin S8x8x32x64x64.rank)
  slices_S8x256x66x66_S8x256x64x64_0_0_0_1 : S8x256x66x66.Slices ![0, 0, 0, 1] S8x256x64x64
  slices_S8x32x9x64x64_S8x32x1x64x64_0_0_1_0_0 : S8x32x9x64x64.Slices ![0, 0, 1, 0, 0] S8x32x1x64x64
  slices_S8x256x66x66_S8x256x64x64_0_0_0_2 : S8x256x66x66.Slices ![0, 0, 0, 2] S8x256x64x64
  slices_S8x32x9x64x64_S8x32x1x64x64_0_0_2_0_0 : S8x32x9x64x64.Slices ![0, 0, 2, 0, 0] S8x32x1x64x64
  slices_S8x256x66x66_S8x256x64x64_0_0_1_0 : S8x256x66x66.Slices ![0, 0, 1, 0] S8x256x64x64
  slices_S8x32x9x64x64_S8x32x1x64x64_0_0_3_0_0 : S8x32x9x64x64.Slices ![0, 0, 3, 0, 0] S8x32x1x64x64
  slices_S8x256x66x66_S8x256x64x64_0_0_1_1 : S8x256x66x66.Slices ![0, 0, 1, 1] S8x256x64x64
  slices_S8x32x9x64x64_S8x32x1x64x64_0_0_4_0_0 : S8x32x9x64x64.Slices ![0, 0, 4, 0, 0] S8x32x1x64x64
  slices_S8x256x66x66_S8x256x64x64_0_0_1_2 : S8x256x66x66.Slices ![0, 0, 1, 2] S8x256x64x64
  slices_S8x32x9x64x64_S8x32x1x64x64_0_0_5_0_0 : S8x32x9x64x64.Slices ![0, 0, 5, 0, 0] S8x32x1x64x64
  slices_S8x256x66x66_S8x256x64x64_0_0_2_0 : S8x256x66x66.Slices ![0, 0, 2, 0] S8x256x64x64
  slices_S8x32x9x64x64_S8x32x1x64x64_0_0_6_0_0 : S8x32x9x64x64.Slices ![0, 0, 6, 0, 0] S8x32x1x64x64
  slices_S8x256x66x66_S8x256x64x64_0_0_2_1 : S8x256x66x66.Slices ![0, 0, 2, 1] S8x256x64x64
  slices_S8x32x9x64x64_S8x32x1x64x64_0_0_7_0_0 : S8x32x9x64x64.Slices ![0, 0, 7, 0, 0] S8x32x1x64x64
  slices_S8x256x66x66_S8x256x64x64_0_0_2_2 : S8x256x66x66.Slices ![0, 0, 2, 2] S8x256x64x64
  slices_S8x32x9x64x64_S8x32x1x64x64_0_0_8_0_0 : S8x32x9x64x64.Slices ![0, 0, 8, 0, 0] S8x32x1x64x64
  shapeCasts_S8x8x32x64x64_S8x256x64x64 : S8x8x32x64x64.ShapeCasts S8x256x64x64

variable [Facts₀]

class Facts : Prop extends Facts₀ where

variable [Facts]
-- ==== Proof.BorderedTaps.lean ====
/-
  A per-pixel weighted sum over a 3×3 neighbourhood, with a border of zeros.

  Take one 64×64 plane `p` of the input and surround it with a border of zeros one cell wide: the bordered plane
  has 66×66 cells, cell (r, s) holding `p (r-1) (s-1)` when 1 ≤ r ≤ 64 and 1 ≤ s ≤ 64, and 0 on the border.
  Every pixel (h, w) has nine weights `q 0 … q 8` of its own, one per cell of the 3×3 neighbourhood, the
  neighbourhood read row by row.  The result at the pixel is

      0 + B(h, w)·q₀ + B(h, w+1)·q₁ + B(h, w+2)·q₂ + B(h+1, w)·q₃ + … + B(h+2, w+2)·q₈

  over the extended reals, the additions made left to right in exactly this order (B is the bordered plane, so
  B(h+a, w+b) is the plane at (h+a-1, w+b-1) or zero).  The two programs compared both compute this very
  expression — same products, same order of additions, a zero start and a zero border on both sides — so no
  law of arithmetic is needed to join them, and in particular nothing has to be finite.  The expression is
  stated here once; each program is then shown to compute it.

  For the whole arrays: the input is x[8, 256, 64, 64] (batch, channel, row, column) and the weights are
  w[8, 32, 9, 64, 64] (batch, channel within a group, tap, row, column).  The 256 channels are 8 groups of 32,
  and every group uses the same weights, so output channel `ch` reads the weights of channel `ch mod 32`.
-/
import Idealize.ShloMosaic.PureOps.Ideal
import Idealize.ShloMosaic.Lib.ValueIdx

noncomputable section

namespace Cert.BorderedTaps

open Idealize.ShloMosaic Idealize.ShloMosaic.ValueIdx

/-- The zero-bordered plane at cell (r, s) of the 66×66 grid: the plane at (r-1, s-1) inside, zero on the border
    (and zero at any cell outside the grid, which no tap ever reads). -/
def bordered (p : Fin 64 → Fin 64 → EReal) (r s : ℕ) : EReal :=
  if h : 1 ≤ r ∧ r ≤ 64 ∧ 1 ≤ s ∧ s ≤ 64 then p ⟨r - 1, by omega⟩ ⟨s - 1, by omega⟩ else 0

/-- Inside: cell (r'+1, s'+1) is the plane at (r', s'). -/
theorem bordered_inside (p : Fin 64 → Fin 64 → EReal) (r s : ℕ) (r' s' : Fin 64)
    (hr : r = r'.val + 1) (hs : s = s'.val + 1) : bordered p r s = p r' s' := by
  subst hr hs
  have h : 1 ≤ r'.val + 1 ∧ r'.val + 1 ≤ 64 ∧ 1 ≤ s'.val + 1 ∧ s'.val + 1 ≤ 64 :=
    ⟨by omega, by have := r'.isLt; omega, by omega, by have := s'.isLt; omega⟩
  unfold bordered
  rw [dif_pos h]
  rfl

/-- On the border (row 0 or 65, column 0 or 65) the cell is zero. -/
theorem bordered_border (p : Fin 64 → Fin 64 → EReal) (r s : ℕ)
    (h : ¬(1 ≤ r ∧ r ≤ 64 ∧ 1 ≤ s ∧ s ≤ 64)) : bordered p r s = 0 := by
  unfold bordered
  rw [dif_neg h]

/-- The nine products summed from zero, left to right, the neighbourhood read row by row. -/
def taps (p : Fin 64 → Fin 64 → EReal) (q : Fin 9 → EReal) (h w : Fin 64) : EReal :=
  0 + bordered p (h.val + 0) (w.val + 0) * q 0 + bordered p (h.val + 0) (w.val + 1) * q 1
    + bordered p (h.val + 0) (w.val + 2) * q 2 + bordered p (h.val + 1) (w.val + 0) * q 3
    + bordered p (h.val + 1) (w.val + 1) * q 4 + bordered p (h.val + 1) (w.val + 2) * q 5
    + bordered p (h.val + 2) (w.val + 0) * q 6 + bordered p (h.val + 2) (w.val + 1) * q 7
    + bordered p (h.val + 2) (w.val + 2) * q 8

/-- The sum depends on the plane and the weights only through their values. -/
theorem taps_congr {p p' : Fin 64 → Fin 64 → EReal} {q q' : Fin 9 → EReal} (hp : ∀ r s, p r s = p' r s)
    (hq : ∀ k, q k = q' k) (h w : Fin 64) : taps p q h w = taps p' q' h w := by
  have ep : p = p' := funext fun r => funext fun s => hp r s
  have eq : q = q' := funext hq
  rw [ep, eq]

/-- Output channel `ch` of 256 uses the weights of channel `ch mod 32`: the eight groups share them. -/
def groupChannel (ch : Fin 256) : Fin 32 := ⟨ch.val % 32, Nat.mod_lt _ (by decide)⟩

/-- The whole result: at (b, ch, h, w), the nine-tap sum of plane (b, ch) of `x` with the weights
    `wts[b, ch mod 32, ·, h, w]`. -/
def result (x : (⟨4, ![8, 256, 64, 64]⟩ : Shape).Idx → EReal) (wts : (⟨5, ![8, 32, 9, 64, 64]⟩ : Shape).Idx → EReal) :
    (⟨4, ![8, 256, 64, 64]⟩ : Shape).Idx → EReal := fun i =>
  let b : Fin 8 := i 0
  let ch : Fin 256 := i 1
  let h : Fin 64 := i 2
  let w : Fin 64 := i 3
  taps (fun r s => x (ix4 b ch r s)) (fun k => wts (ix5 b (groupChannel ch) k h w)) h w

/-- The result at explicit coordinates. -/
theorem result_apply (x : (⟨4, ![8, 256, 64, 64]⟩ : Shape).Idx → EReal) (wts : (⟨5, ![8, 32, 9, 64, 64]⟩ : Shape).Idx → EReal)
    (b : Fin 8) (ch : Fin 256) (h w : Fin 64) :
    result x wts (ix4 b ch h w)
      = taps (fun r s => x (ix4 b ch r s)) (fun k => wts (ix5 b (groupChannel ch) k h w)) h w := rfl

end Cert.BorderedTaps

end
-- ==== Proof.LibUnitAxes.lean ====
/-
  Two unit axes dropped at once, read at an index.

  Lib/ValueLayout reads a cast that adds or drops ONE leading unit axis, and gives the index map of a squeeze of
  `[1, a, 1, b, c]`; it does not state the cast itself read at an index.  A body that loads a one-entry slab of a
  rank-5 block and squeezes it to rank 3 needs exactly that form.
-/
import Idealize.ShloMosaic.Lib.Pipeline.Value
import Idealize.ShloMosaic.Lib.ValueIdx
import Idealize.ShloMosaic.Lib.ValueLayout

namespace Cert.LibUnitAxes

open Idealize.ShloMosaic Idealize.ShloMosaic.ValueIdx

/-- A `[1, a, 1, b, c]` array cast to `[a, b, c]` reads, at `(x, y, z)`, the operand at `(0, x, 0, y, z)`: the two
    indices have the same row-major position, the unit axes contributing nothing to it. -/
theorem shapeCast_1a1bc_abc_apply {α : Type} {a b c : ℕ} (v : (⟨5, ![1, a, 1, b, c]⟩ : Shape).Idx → α)
    (h : (⟨5, ![1, a, 1, b, c]⟩ : Shape).ShapeCasts ⟨3, ![a, b, c]⟩) (x : Fin a) (y : Fin b) (z : Fin c) :
    shapeCast ⟨3, ![a, b, c]⟩ v h (ix3 x y z) = v (ix5 (0 : Fin 1) x (0 : Fin 1) y z) := by
  unfold shapeCast
  exact congrArg v (reshapeEquiv_ix3_1a1bc h x y z)

end Cert.LibUnitAxes
-- ==== Proof.LibCanonOff.lean ====
/-
  The contents a list of writes leaves, off the last write, without a membership.

  `View.canon_cons_of_not_mem` says that at an index outside the last write's rectangle the contents are what the
  earlier writes left, and takes the hypothesis `y ∉ r.set`.  For a rectangle of production extents a hypothesis of
  that form is costly to hand to a lemma (its set is a filtered finite type).  The same fact is stated here from the
  hypothesis that no index of the rectangle lands on `y`, which a proof gets from coordinates alone.
-/
import Idealize.ShloMosaic.Lib.Pipeline.FrameBody
import Idealize.ShloMosaic.Lib.Memref

namespace Cert.LibCanonOff

open Idealize.ShloMosaic

/-- A function overlaid on a rectangle is unchanged at an index that no index of the rectangle lands on. -/
theorem overlay_of_forall_ne {sh : Shape} {α : Type} (r : Rect sh) (X : sh.Idx → α) (G : r.shape.Idx → α) {j : sh.Idx}
    (h : ∀ x, r.emb x ≠ j) : r.overlay X G j = X j := by
  unfold Rect.overlay
  rw [preimage?_eq_none h]

/-- At an index that no index of the last write's rectangle lands on, the writes leave what the earlier ones left. -/
theorem canon_cons_of_forall_ne {Val : EltTy → Type} [∀ e, Nonempty (Val e)] {s : Shape} {e : EltTy} (r : Rect s)
    (w : r.shape.Idx → Val e) (L : List (View.Piece Val s e)) {y : s.Idx} (h : ∀ x, r.emb x ≠ y) :
    View.canon (⟨r, w⟩ :: L) y = View.canon L y := by
  rw [View.canon_cons]
  exact overlay_of_forall_ne r (View.canon L) w h

end Cert.LibCanonOff
-- ==== Proof.BlockTaps.lean ====
/-
  One grid point of the kernel computes the bordered nine-tap sum of its blocks.

  At a grid point the kernel holds a block X of the input, [1, 32, 64, 64] (one batch entry, the 32 channels of one
  group), and a block W of the weights, [1, 32, 9, 64, 64].  It keeps a scratch buffer [32, 66, 66]: it fills the
  whole of it with zeros, then stores X (its unit axis dropped) into the interior, rows 1..64 and columns 1..64.  After
  these two stores cell (c, r, s) of the scratch is the zero-bordered plane of channel c at (r, s): the later store
  wins inside, the zeros remain on the border.  Then, for each of the nine cells (a, b) of the 3×3 neighbourhood in
  row-major order, it loads the [32, 64, 64] window of the scratch that starts at (a, b) — at (c, h, w) this is scratch
  cell (c, h + a, w + b) —, loads tap 3a + b of W, multiplies, and adds the product to a sum that starts at zero.  The
  sum, given its unit axis back, is stored as the whole output block.  So the output block at (0, c, h, w) is
  `BorderedTaps.taps` of plane c of X with the weights W[0, c, ·, h, w].
-/
import proofs.«134660_j44899588113058_1_alg».proof.Proof.Gen.KernelIdeal.Frame
import proofs.«134660_j44899588113058_1_alg».proof.Proof.BorderedTaps
import proofs.«134660_j44899588113058_1_alg».proof.Proof.LibUnitAxes
import proofs.«134660_j44899588113058_1_alg».proof.Proof.LibCanonOff
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Taps

open Cert.KernelIdeal Cert.KernelIdeal.Gen Idealize.ShloMosaic Idealize.ShloMosaic.TcCoe Idealize.ShloMosaic.Tactic
open Idealize.ShloMosaic.ValueIdx Idealize.SL.Sem Cert.BorderedTaps Cert.LibUnitAxes Cert.LibCanonOff

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## The scratch after its two stores -/

/-- What the interior store writes: the input block with its unit axis dropped. -/
theorem interior_apply (X : Vec Ideal S1x32x64x64 .f32) (c : Fin 32) (r s : Fin 64) :
    k0_pay3 X (ix3 c r s) = X (ix4 (0 : Fin 1) c r s) := by
  show shapeCast S32x64x64 (shapeCast S32x64x64 X _) _ (ix3 c r s) = _
  rw [shapeCast_self]
  exact shapeCast_1abc_abc_apply X _ c r s

/-- What the fill writes: zero everywhere. -/
theorem fill_apply (j : S32x66x66.Idx) : k0_pay2 (F := Ideal) j = 0 :=
  (show k0_pay2 (F := Ideal) j = Ideal.ofBits .f32 0x00000000#32 from rfl).trans Ideal.ofBits_zero_f32

/-- After the fill and then the interior store, scratch cell (c, r, s) is the zero-bordered plane of channel c of the
    block at (r, s): inside, the interior store was the last to write the cell; on the border, only the fill wrote it. -/
theorem scratch_cell (X : Vec Ideal S1x32x64x64 .f32)
    (inbI : ∀ a, (![0, 1, 1] : Fin 3 → Nat) a + (![32, 64, 64] : Fin 3 → Nat) a ≤ S32x66x66.size a)
    (inbW : ∀ a, (![0, 0, 0] : Fin 3 → Nat) a + (![32, 66, 66] : Fin 3 → Nat) a ≤ S32x66x66.size a)
    (c : Fin 32) (r s : Fin 66) :
    View.canon ([⟨Rect.unit (s := S32x66x66) ![0, 1, 1] ![32, 64, 64] inbI, k0_pay3 X⟩,
        ⟨Rect.unit (s := S32x66x66) ![0, 0, 0] ![32, 66, 66] inbW, k0_pay2 (F := Ideal)⟩] : List (View.Piece (Elt Ideal) S32x66x66 .f32)) (ix3 c r s)
      = bordered (fun r' s' => X (ix4 (0 : Fin 1) c r' s')) r.val s.val := by
  have hr66 : r.val < 66 := r.isLt
  have hs66 : s.val < 66 := s.isLt
  by_cases hin : 1 ≤ r.val ∧ r.val ≤ 64 ∧ 1 ≤ s.val ∧ s.val ≤ 64
  · have e : ix3 c r s = (Rect.unit (s := S32x66x66) ![0, 1, 1] ![32, 64, 64] inbI).emb
        (ix3 c (⟨r.val - 1, by omega⟩ : Fin 64) (⟨s.val - 1, by omega⟩ : Fin 64)) := by
      funext a
      apply Fin.ext
      match a with
      | ⟨0, _⟩ => show c.val = 0 + 1 * c.val; omega
      | ⟨1, _⟩ => show r.val = 1 + 1 * (r.val - 1); omega
      | ⟨2, _⟩ => show s.val = 1 + 1 * (s.val - 1); omega
    rw [e, View.canon_cons_emb, interior_apply,
      bordered_inside _ r.val s.val (⟨r.val - 1, by omega⟩ : Fin 64) (⟨s.val - 1, by omega⟩ : Fin 64)
        (by show r.val = r.val - 1 + 1; omega) (by show s.val = s.val - 1 + 1; omega)]
  · have hmiss : ∀ x, (Rect.unit (s := S32x66x66) ![0, 1, 1] ![32, 64, 64] inbI).emb x ≠ ix3 c r s := by
      intro x hx
      have h1 : 1 + 1 * (x 1).val = r.val := congrArg (fun y : S32x66x66.Idx => (y 1).val) hx
      have h2 : 1 + 1 * (x 2).val = s.val := congrArg (fun y : S32x66x66.Idx => (y 2).val) hx
      have b1 : (x 1).val < 64 := (x 1).isLt
      have b2 : (x 2).val < 64 := (x 2).isLt
      exact hin (by omega)
    rw [canon_cons_of_forall_ne (Val := Elt Ideal) (e := .f32) (Rect.unit (s := S32x66x66) ![0, 1, 1] ![32, 64, 64] inbI) (k0_pay3 X) _ hmiss,
      View.canon_unit_zero zero3, fill_apply, bordered_border _ _ _ hin]

/-- A load of the [32, 64, 64] window of the scratch that starts at (0, a, b), read at (c, h, w), is scratch cell
    (c, h + a, w + b) as the stores left it. -/
theorem scratch_load (v : View sig .tc .vmem S32x66x66 .f32) (L : List (View.Piece (Elt Ideal) S32x66x66 .f32))
    (a b : Nat) (inb : ∀ d, (![0, a, b] : Fin 3 → Nat) d + (![32, 64, 64] : Fin 3 → Nat) d ≤ S32x66x66.size d)
    (c : Fin 32) (h w : Fin 64) (ha : h.val + a < 66) (hb : w.val + b < 66) :
    v.readCov L (Rect.unit (s := S32x66x66) ![0, a, b] ![32, 64, 64] inb).toLoadRect (ix3 c h w)
      = View.canon L (ix3 c (⟨h.val + a, ha⟩ : Fin 66) (⟨w.val + b, hb⟩ : Fin 66)) := by
  rw [View.readCov_eq_canon']
  refine congrArg (View.canon L) (funext fun d => Fin.ext ?_)
  match d with
  | ⟨0, _⟩ => show 0 + 1 * c.val = c.val; omega
  | ⟨1, _⟩ => show a + 1 * h.val = h.val + a; omega
  | ⟨2, _⟩ => show b + 1 * w.val = w.val + b; omega

/-- So a load of the window that starts at (0, a, b), after the fill and the interior store, read at (c, h, w), is the
    zero-bordered plane of channel c at cell (h + a, w + b). -/
theorem scratch_window (v : View sig .tc .vmem S32x66x66 .f32) (X : Vec Ideal S1x32x64x64 .f32)
    (inbI : ∀ d, (![0, 1, 1] : Fin 3 → Nat) d + (![32, 64, 64] : Fin 3 → Nat) d ≤ S32x66x66.size d)
    (inbW : ∀ d, (![0, 0, 0] : Fin 3 → Nat) d + (![32, 66, 66] : Fin 3 → Nat) d ≤ S32x66x66.size d)
    (a b : Nat) (inb : ∀ d, (![0, a, b] : Fin 3 → Nat) d + (![32, 64, 64] : Fin 3 → Nat) d ≤ S32x66x66.size d)
    (c : Fin 32) (h w : Fin 64) (ha : a ≤ 2) (hb : b ≤ 2) :
    v.readCov ([⟨Rect.unit (s := S32x66x66) ![0, 1, 1] ![32, 64, 64] inbI, k0_pay3 X⟩,
        ⟨Rect.unit (s := S32x66x66) ![0, 0, 0] ![32, 66, 66] inbW, k0_pay2 (F := Ideal)⟩] : List (View.Piece (Elt Ideal) S32x66x66 .f32))
      (Rect.unit (s := S32x66x66) ![0, a, b] ![32, 64, 64] inb).toLoadRect (ix3 c h w)
      = bordered (fun r' s' => X (ix4 (0 : Fin 1) c r' s')) (h.val + a) (w.val + b) := by
  have hh : h.val < 64 := h.isLt
  have hw : w.val < 64 := w.isLt
  rw [scratch_load v _ a b inb c h w (by omega) (by omega)]
  exact scratch_cell X inbI inbW c _ _

/-! ## The weights -/

/-- The one-tap slab of the weight block that starts at tap k, read at (0, c, 0, h, w), is the block at (0, c, k, h, w). -/
theorem weight_window (W : Vec Ideal S1x32x9x64x64 .f32) (k : Nat) (hk : k < 9)
    (inb : ∀ d, (![0, 0, k, 0, 0] : Fin 5 → Nat) d + (![1, 32, 1, 64, 64] : Fin 5 → Nat) d ≤ S1x32x9x64x64.size d)
    (c : Fin 32) (h w : Fin 64) :
    View.ld W (Rect.unit (s := S1x32x9x64x64) ![0, 0, k, 0, 0] ![1, 32, 1, 64, 64] inb) (ix5 (0 : Fin 1) c (0 : Fin 1) h w)
      = W (ix5 (0 : Fin 1) c (⟨k, hk⟩ : Fin 9) h w) := by
  refine congrArg W (funext fun d => Fin.ext ?_)
  match d with
  | ⟨0, _⟩ => show 0 + 1 * 0 = 0; omega
  | ⟨1, _⟩ => show 0 + 1 * c.val = c.val; omega
  | ⟨2, _⟩ => show k + 1 * 0 = k; omega
  | ⟨3, _⟩ => show 0 + 1 * h.val = h.val; omega
  | ⟨4, _⟩ => show 0 + 1 * w.val = w.val; omega

/-! ## The body's arithmetic at an index -/

/-- The nine multiply-adds, at (0, c, h, w), over any nine loaded windows and any nine loaded slabs: the products summed
    from zero in the order the body makes them. -/
theorem payload_apply (s0 s1 s2 s3 s4 s5 s6 s7 s8 : Vec Ideal S32x64x64 .f32)
    (w0 w1 w2 w3 w4 w5 w6 w7 w8 : Vec Ideal S1x32x1x64x64 .f32) (c : Fin 32) (h w : Fin 64) :
    k0_pay1 (k0_pay5 (k0_pay4 s0 w0 s1 w1) s2 w2 s3 w3 s4 w4 s5 w5 s6 w6) s7 w7 s8 w8 (ix4 (0 : Fin 1) c h w)
      = 0 + s0 (ix3 c h w) * w0 (ix5 (0 : Fin 1) c (0 : Fin 1) h w)
        + s1 (ix3 c h w) * w1 (ix5 (0 : Fin 1) c (0 : Fin 1) h w)
        + s2 (ix3 c h w) * w2 (ix5 (0 : Fin 1) c (0 : Fin 1) h w)
        + s3 (ix3 c h w) * w3 (ix5 (0 : Fin 1) c (0 : Fin 1) h w)
        + s4 (ix3 c h w) * w4 (ix5 (0 : Fin 1) c (0 : Fin 1) h w)
        + s5 (ix3 c h w) * w5 (ix5 (0 : Fin 1) c (0 : Fin 1) h w)
        + s6 (ix3 c h w) * w6 (ix5 (0 : Fin 1) c (0 : Fin 1) h w)
        + s7 (ix3 c h w) * w7 (ix5 (0 : Fin 1) c (0 : Fin 1) h w)
        + s8 (ix3 c h w) * w8 (ix5 (0 : Fin 1) c (0 : Fin 1) h w) := by
  unfold k0_pay1 k0_pay5 k0_pay4
  simp only [shapeCast_abc_1abc_apply, addf_apply, mulf_apply, shapeCast_1a1bc_abc_apply, broadcast_apply]
  rw [show (Scalar.ofBits (F := Ideal) .f32 0x00000000#32) = (0 : EReal) from Ideal.ofBits_zero_f32]

/-! ## The output block -/

/-- The bordered nine-tap sum of a pair of blocks: at (0, c, h, w), plane c of the input block with the weights
    `W[0, c, ·, h, w]`. -/
def blockTaps (X : Vec Ideal S1x32x64x64 .f32) (W : Vec Ideal S1x32x9x64x64 .f32) : Vec Ideal S1x32x64x64 .f32 := fun j =>
  let c : Fin 32 := j 1
  let h : Fin 64 := j 2
  let w : Fin 64 := j 3
  taps (fun r s => X (ix4 (0 : Fin 1) c r s)) (fun k => W (ix5 (0 : Fin 1) c k h w)) h w

theorem blockTaps_apply (X : Vec Ideal S1x32x64x64 .f32) (W : Vec Ideal S1x32x9x64x64 .f32) (u : Fin 1) (c : Fin 32) (h w : Fin 64) :
    blockTaps X W (ix4 u c h w) = taps (fun r s => X (ix4 (0 : Fin 1) c r s)) (fun k => W (ix5 (0 : Fin 1) c k h w)) h w := rfl

/-- What the body leaves in the output's staging buffer, whatever the staging memrefs and the grid point: the bordered
    nine-tap sum of the two input blocks. -/
theorem out_eq (cd : Dev nD) (i : grid0.Coords)
    (a2 : Memref sig .tc .vmem S1x32x64x64 .f32) (h2 : a2.IsWhole)
    (a3 : Memref sig .tc .vmem S1x32x9x64x64 .f32) (h3 : a3.IsWhole)
    (a4 : Memref sig .tc .vmem S1x32x64x64 .f32) (h4 : a4.IsWhole)
    (a5 : Memref sig .tc .vmem S32x66x66 .f32) (h5 : a5.IsWhole)
    (X : Vec Ideal S1x32x64x64 .f32) (W : Vec Ideal S1x32x9x64x64 .f32) :
    out0_A_2 (F := Ideal) cd i a2 h2 a3 h3 a4 h4 a5 h5 X W = blockTaps X W := by
  unfold out0_A_2
  rw [View.read_writes_eq_canon _ _ _ (cover0_A_2 cd i a2 h2 a3 h3 a4 h4 a5 h5 X W)]
  unfold kernelRun0_A
  dsimp only
  rw [View.canon_unit_zero zero4]
  sl_unfold_words
  simp only [View.readAt_eq_ld, h2.read_unread, h3.read_unread, View.ld_unit_zero (S := S1x32x64x64) zero4]
  funext j
  obtain ⟨u, c, h, w, rfl⟩ : ∃ (u : Fin 1) (c : Fin 32) (h w : Fin 64), j = ix4 u c h w := ⟨j 0, j 1, j 2, j 3, eq_ix4 j⟩
  obtain rfl : u = 0 := Subsingleton.elim _ _
  have hh : h.val < 64 := h.isLt
  have hw : w.val < 64 := w.isLt
  rw [payload_apply, blockTaps_apply]
  rw [scratch_window _ X _ _ 0 0 _ c h w (by omega) (by omega),
    scratch_window _ X _ _ 0 1 _ c h w (by omega) (by omega),
    scratch_window _ X _ _ 0 2 _ c h w (by omega) (by omega),
    scratch_window _ X _ _ 1 0 _ c h w (by omega) (by omega),
    scratch_window _ X _ _ 1 1 _ c h w (by omega) (by omega),
    scratch_window _ X _ _ 1 2 _ c h w (by omega) (by omega),
    scratch_window _ X _ _ 2 0 _ c h w (by omega) (by omega),
    scratch_window _ X _ _ 2 1 _ c h w (by omega) (by omega),
    scratch_window _ X _ _ 2 2 _ c h w (by omega) (by omega)]
  rw [weight_window W 0 (by omega) _ c h w,
    weight_window W 1 (by omega) _ c h w,
    weight_window W 2 (by omega) _ c h w,
    weight_window W 3 (by omega) _ c h w,
    weight_window W 4 (by omega) _ c h w,
    weight_window W 5 (by omega) _ c h w,
    weight_window W 6 (by omega) _ c h w,
    weight_window W 7 (by omega) _ c h w,
    weight_window W 8 (by omega) _ c h w]
  rfl

end Cert.KernelIdeal.Taps

end
-- ==== Proof.ArrayTaps.lean ====
/-
  From the grid's blocks to the whole result array.

  The grid has 8 × 8 points.  At point (p, g) the output's block is batch entry p, channels 32·g .. 32·g + 31, all rows
  and columns; the input's block is the same region of the input; the weights' block is batch entry p of the weights,
  all 32 channels and all nine taps, whatever g is.  So the 64 output blocks tile the output array, each written once,
  and what point (p, g) writes at (0, c, h, w) of its block — the bordered nine-tap sum of its two input blocks — is
  `BorderedTaps.result` of the whole arrays at (p, 32·g + c, h, w): plane c of the input block is plane (p, 32·g + c)
  of the input, and since (32·g + c) mod 32 = c the weights read are the ones the result names.
-/
import proofs.«134660_j44899588113058_1_alg».proof.Proof.Gen.KernelIdeal.Value
import proofs.«134660_j44899588113058_1_alg».proof.Proof.BlockTaps

set_option maxRecDepth 16384

noncomputable section

namespace Cert.KernelIdeal.Taps

open Cert.KernelIdeal Cert.KernelIdeal.Gen Idealize.ShloMosaic Idealize.ShloMosaic.TcCoe
open Idealize.ShloMosaic.ValueIdx Idealize.SL.Sem Cert.BorderedTaps
open Idealize.ShloMosaic.Pipeline (Dat)

/-- A block of the result is the block function of the matching blocks of the arguments: if X is plane-for-plane the
    region (p, 32·g ..) of `x` and W is entry p of `wts`, then at block index j and array index i with i = (p, 32·g + j₁,
    j₂, j₃) the bordered nine-tap sum of (X, W) at j is the result of (x, wts) at i. -/
theorem block_eq (x : S8x256x64x64.Idx → EReal) (wts : S8x32x9x64x64.Idx → EReal)
    (X : Vec Ideal S1x32x64x64 .f32) (W : Vec Ideal S1x32x9x64x64 .f32) (p g : Nat) (hp : p < 8) (hg : g < 8)
    (hX : ∀ (c : Fin 32) (r s : Fin 64),
      X (ix4 (0 : Fin 1) c r s) = x (ix4 (⟨p, hp⟩ : Fin 8) (⟨g * 32 + c.val, by have := c.isLt; omega⟩ : Fin 256) r s))
    (hW : ∀ (c : Fin 32) (k : Fin 9) (h w : Fin 64),
      W (ix5 (0 : Fin 1) c k h w) = wts (ix5 (⟨p, hp⟩ : Fin 8) c k h w))
    (j : S1x32x64x64.Idx) (i : S8x256x64x64.Idx)
    (h0 : (i 0).val = p) (h1 : (i 1).val = g * 32 + (j 1).val) (h2 : (i 2).val = (j 2).val) (h3 : (i 3).val = (j 3).val) :
    blockTaps X W j = result x wts i := by
  obtain ⟨u, c, h, w, rfl⟩ : ∃ (u : Fin 1) (c : Fin 32) (h w : Fin 64), j = ix4 u c h w := ⟨j 0, j 1, j 2, j 3, eq_ix4 j⟩
  have hc : c.val < 32 := c.isLt
  have hi : i = ix4 (⟨p, hp⟩ : Fin 8) (⟨g * 32 + c.val, by omega⟩ : Fin 256) h w := by
    funext a
    apply Fin.ext
    match a with
    | ⟨0, _⟩ => exact h0
    | ⟨1, _⟩ => exact h1
    | ⟨2, _⟩ => exact h2
    | ⟨3, _⟩ => exact h3
  rw [hi, blockTaps_apply, result_apply]
  refine taps_congr (fun r s => hX c r s) (fun k => ?_) h w
  rw [hW]
  have e : groupChannel (⟨g * 32 + c.val, by omega⟩ : Fin 256) = c := Fin.ext (by show (g * 32 + c.val) % 32 = c.val; omega)
  rw [e]

variable (m : (ℓ : Loc nD τ sig) → Buf (Elt Ideal) ℓ) (ρ : Dev nD → PrngReg)

/-- The printed index maps, decided over the 64 grid points: the input's block index is the output's; the weights' block
    index is the output's on the batch axis and zero elsewhere; the output's is (p, g, 0, 0) with p, g ≤ 7. -/
theorem index_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 5) = win0_2.index t (0 : Fin 4) ∧ win0_1.index t (1 : Fin 5) = 0
    ∧ win0_1.index t (2 : Fin 5) = 0 ∧ win0_1.index t (3 : Fin 5) = 0 ∧ win0_1.index t (4 : Fin 5) = 0
    ∧ win0_2.index t (0 : Fin 4) ≤ 7 ∧ win0_2.index t (1 : Fin 4) ≤ 7
    ∧ win0_2.index t (2 : Fin 4) = 0 ∧ win0_2.index t (3 : Fin 4) = 0 :=
  (by decide +kernel : ∀ t : Fin grid0.N, _)

/-- Every (p, g) is some point's output block index. -/
theorem index_onto : ∀ (p g : Fin 8), ∃ t : Fin cfg0.N, win0_2.index t = ![p.val, g.val, 0, 0] :=
  (by decide +kernel : ∀ (p g : Fin 8), ∃ t : Fin grid0.N, win0_2.index t = ![p.val, g.val, 0, 0])

/-- What point `t` writes back is block `t` of the result of the argument arrays. -/
theorem flushed_eq (c : Dev nD) (t : Fin cfg0.N) :
    (dats m 0 c).flushed 2 t
      = ((cfg0.win 2).blk t).view.read (Elt Ideal) (result (V m c main_arg0) (V m c main_arg1)) := by
  obtain ⟨e00, e01, e02, e03, e10, e11, e12, e13, e14, b0, b1, z2, z3⟩ := index_facts t
  refine (Cert.KernelIdeal.Value.flushed2_A m c t).trans ?_
  refine (congrArg ((cfg0.win 2).cut (grid0.coords t))
    (out_eq c (grid0.coords t) (ms0_0 t) (hs0_0 t) (ms0_1 t) (hs0_1 t) (ms0_2 t) (hs0_2 t) scM0_0 (Memref.isWhole_whole _)
      (iblk m c 0 t) (iblk m c 1 t))).trans ?_
  funext j
  show blockTaps (iblk m c 0 t) (iblk m c 1 t) j
    = result (V m c main_arg0) (V m c main_arg1) (((cfg0.win 2).blk t).view.emb j)
  have hj0 : (j 0).val < 1 := (j 0).isLt
  refine block_eq (V m c main_arg0) (V m c main_arg1) (iblk m c 0 t) (iblk m c 1 t)
    (win0_2.index t (0 : Fin 4)) (win0_2.index t (1 : Fin 4)) (by omega) (by omega) ?_ ?_ j
    (((cfg0.win 2).blk t).view.emb j) ?_ ?_ ?_ ?_
  · intro c' r s
    show V m c main_arg0 (((cfg0.win 0).blk t).view.emb (ix4 (0 : Fin 1) c' r s)) = _
    refine congrArg (V m c main_arg0) (funext fun a => Fin.ext ?_)
    match a with
    | ⟨0, _⟩ => show win0_0.index t (0 : Fin 4) * 1 + 1 * 0 = win0_2.index t (0 : Fin 4); omega
    | ⟨1, _⟩ => show win0_0.index t (1 : Fin 4) * 32 + 1 * c'.val = win0_2.index t (1 : Fin 4) * 32 + c'.val; omega
    | ⟨2, _⟩ => show win0_0.index t (2 : Fin 4) * 64 + 1 * r.val = r.val; omega
    | ⟨3, _⟩ => show win0_0.index t (3 : Fin 4) * 64 + 1 * s.val = s.val; omega
  · intro c' k h w
    show V m c main_arg1 (((cfg0.win 1).blk t).view.emb (ix5 (0 : Fin 1) c' k h w)) = _
    refine congrArg (V m c main_arg1) (funext fun a => Fin.ext ?_)
    match a with
    | ⟨0, _⟩ => show win0_1.index t (0 : Fin 5) * 1 + 1 * 0 = win0_2.index t (0 : Fin 4); omega
    | ⟨1, _⟩ => show win0_1.index t (1 : Fin 5) * 32 + 1 * c'.val = c'.val; omega
    | ⟨2, _⟩ => show win0_1.index t (2 : Fin 5) * 9 + 1 * k.val = k.val; omega
    | ⟨3, _⟩ => show win0_1.index t (3 : Fin 5) * 64 + 1 * h.val = h.val; omega
    | ⟨4, _⟩ => show win0_1.index t (4 : Fin 5) * 64 + 1 * w.val = w.val; omega
  · show win0_2.index t (0 : Fin 4) * 1 + 1 * (j 0).val = win0_2.index t (0 : Fin 4); omega
  · show win0_2.index t (1 : Fin 4) * 32 + 1 * (j 1).val = win0_2.index t (1 : Fin 4) * 32 + (j 1).val; omega
  · show win0_2.index t (2 : Fin 4) * 64 + 1 * (j 2).val = (j 2).val; omega
  · show win0_2.index t (3 : Fin 4) * 64 + 1 * (j 3).val = (j 3).val; omega

/-- An index of the array is in point `t`'s block iff each coordinate is in the block's range on its axis. -/
theorem mem_blk (t : Fin cfg0.N) (i : S8x256x64x64.Idx) :
    i ∈ ((cfg0.win 2).blk t).view.set ↔ ∀ a : Fin 4, win0_2.index t a * S1x32x64x64.size a ≤ (i a).val
      ∧ (i a).val < win0_2.index t a * S1x32x64x64.size a + S1x32x64x64.size a := by
  show i ∈ ((View.whole main_v0).slice (win0_2.rect t)).set ↔ _
  rw [View.set_slice_whole, Rect.mem_set_unit]
  exact Iff.rfl

/-- Every index of the result array lies in the block of the point (its batch entry, its channel's group). -/
theorem cover (i : S8x256x64x64.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 64 := (i 2).isLt
  have hi3 : (i 3).val < 64 := (i 3).isLt
  obtain ⟨t, ht⟩ := index_onto (⟨(i 0).val, hi0⟩ : Fin 8) (⟨(i 1).val / 32, by omega⟩ : Fin 8)
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- So after the run the result array holds the bordered nine-tap sum of the argument arrays. -/
theorem final (c : Dev nD) :
    (dats m 0 c).arrAt 2 cfg0.N = result (m ((c : Thread nD τ).loc main_arg0)) (m ((c : Thread nD τ).loc main_arg1)) :=
  (dats m 0 c).arrAt_eq_of_cover 2 (result (V m c main_arg0) (V m c main_arg1)) (fun t _ => flushed_eq m c t) cover

/-- The kernel's run, read: the result array at the bordered nine-tap sum of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Taps

end
-- ==== Proof.ReferenceTaps.lean ====
/-
  The reference computes the bordered nine-tap sum.

  The reference pads the input with a border of zeros (one cell on each side of the two spatial axes, the padding value
  an integer zero converted to a float), and then, for each of the nine cells (a, b) of the 3×3 neighbourhood in
  row-major order, takes the 64×64 window of the padded array that starts at (a, b), regroups its 256 channels as
  8 groups of 32, multiplies by the weights of that tap laid over the eight groups, and adds the product to a running
  sum that starts at zero.  Finally the groups are merged back into 256 channels.  Read at one output index
  (b, ch, h, w) this is the sum `BorderedTaps.result`: each window read is a cell of the bordered plane, each weight
  read is `wts[b, ch mod 32, tap, h, w]`, and the additions come in the same order.  The only values that have to be
  computed are the two zeros (the padding value and the start of the sum).
-/
import proofs.«134660_j44899588113058_1_alg».proof.Proof.Gen.ReferenceIdeal.Read
import proofs.«134660_j44899588113058_1_alg».proof.Proof.BorderedTaps
import Idealize.ShloMosaic.Lib.KernelVsHost
import Idealize.ShloMosaic.Lib.ValueIdx
import Idealize.ShloMosaic.PureOps.Ideal.Laws

noncomputable section

namespace Cert.ReferenceIdeal.Taps

open Cert.ReferenceIdeal Cert.ReferenceIdeal.Read Idealize.ShloMosaic Idealize.ShloMosaic.ValueIdx Cert.BorderedTaps

/-- Channel `c` of group `g` is channel 32·g + c of the 256. -/
def groupedChannel (g : Fin 8) (c : Fin 32) : Fin 256 := ⟨g.val * 32 + c.val, by have := g.isLt; have := c.isLt; omega⟩

/-- The padding value: the integer zero converted to a float is zero. -/
theorem padding_value (j : S_.Idx) : val_main_call0_v0 (F := Ideal) j = 0 := by
  rw [val_main_call0_v0_apply, val_main_c_apply]
  exact sitofp_zero (φ := .f32)

/-- The padded input at cell (b, ch, r, s) of [8, 256, 66, 66] is the bordered plane (b, ch) of the input at (r, s):
    inside, the input one row up and one column left; on the border, the padding value, which is zero. -/
theorem padded_apply (x0 : (⟨S8x256x64x64, .f32⟩ : BufTy).Contents (Elt Ideal)) (b : Fin 8) (ch : Fin 256) (r s : Fin 66) :
    val_main_v0 (F := Ideal) x0 (ix4 b ch r s) = bordered (fun r' s' => x0 (ix4 b ch r' s')) r.val s.val := by
  have hr66 : r.val < 66 := r.isLt
  have hs66 : s.val < 66 := s.isLt
  unfold val_main_v0
  by_cases hin : 1 ≤ r.val ∧ r.val ≤ 64 ∧ 1 ≤ s.val ∧ s.val ≤ 64
  · rw [bordered_inside _ r.val s.val (⟨r.val - 1, by omega⟩ : Fin 64) (⟨s.val - 1, by omega⟩ : Fin 64)
      (by show r.val = r.val - 1 + 1; omega) (by show s.val = s.val - 1 + 1; omega)]
    refine pad_apply_of_inside _ _ _ x0 _ _ _ (ix4 b ch r s)
      (ix4 b ch (⟨r.val - 1, by omega⟩ : Fin 64) (⟨s.val - 1, by omega⟩ : Fin 64)) (fun a => ?_)
    match a with
    | ⟨0, _⟩ => show b.val = 0 + b.val * (0 + 1); omega
    | ⟨1, _⟩ => show ch.val = 0 + ch.val * (0 + 1); omega
    | ⟨2, _⟩ => show r.val = 1 + (r.val - 1) * (0 + 1); omega
    | ⟨3, _⟩ => show s.val = 1 + (s.val - 1) * (0 + 1); omega
  · rw [bordered_border _ _ _ hin]
    by_cases hr : 1 ≤ r.val ∧ r.val ≤ 64
    · refine (pad_apply_of_not_inside _ _ _ x0 _ _ _ (ix4 b ch r s) (⟨3, by decide⟩ : Fin 4) ?_).trans (padding_value _)
      show ¬(1 ≤ s.val ∧ (s.val - 1) % (0 + 1) = 0 ∧ (s.val - 1) / (0 + 1) < 64)
      omega
    · refine (pad_apply_of_not_inside _ _ _ x0 _ _ _ (ix4 b ch r s) (⟨2, by decide⟩ : Fin 4) ?_).trans (padding_value _)
      show ¬(1 ≤ r.val ∧ (r.val - 1) % (0 + 1) = 0 ∧ (r.val - 1) / (0 + 1) < 64)
      omega

/-- Tap 0 (neighbourhood row 0, column 0): the shifted window of the bordered input, regrouped into (group, channel),
    read at (b, g, c, h, w), is the bordered plane of channel 32·g + c at cell (h + 0, w + 0). -/
theorem patch_0 (x0 : (⟨S8x256x64x64, .f32⟩ : BufTy).Contents (Elt Ideal)) (b g : Fin 8) (c : Fin 32) (h w : Fin 64) :
    val_main_v3 (F := Ideal) x0 (ix5 b g c h w)
      = bordered (fun r' s' => x0 (ix4 b (groupedChannel g c) r' s')) (h.val + 0) (w.val + 0) := by
  have hb : b.val < 8 := b.isLt; have hg : g.val < 8 := g.isLt; have hc : c.val < 32 := c.isLt; have hh : h.val < 64 := h.isLt; have hw : w.val < 64 := w.isLt
  rw [val_main_v3_apply, val_main_v2_apply]
  have e : idx_main_v2 (idx_main_v3 (ix5 b g c h w))
      = ix4 b (groupedChannel g c) (⟨h.val + 0, by omega⟩ : Fin 66) (⟨w.val + 0, by omega⟩ : Fin 66) := by
    funext a
    apply Fin.ext
    match a with
    | ⟨0, _⟩ => show ((((b.val * 8 + g.val) * 32 + c.val) * 64 + h.val) * 64 + w.val) / 1048576 = b.val; omega
    | ⟨1, _⟩ => show ((((b.val * 8 + g.val) * 32 + c.val) * 64 + h.val) * 64 + w.val) / 4096 % 256 = g.val * 32 + c.val; omega
    | ⟨2, _⟩ => show ((((b.val * 8 + g.val) * 32 + c.val) * 64 + h.val) * 64 + w.val) / 64 % 64 = h.val + 0; omega
    | ⟨3, _⟩ => show ((((b.val * 8 + g.val) * 32 + c.val) * 64 + h.val) * 64 + w.val) % 64 = w.val + 0; omega
  rw [e]
  exact padded_apply x0 b (groupedChannel g c) _ _

/-- Tap 0's weights: slice 0 of the tap axis, dropped to [8, 32, 64, 64] and laid over the eight groups, read at
    (b, g, c, h, w), is the weight array at (b, c, 0, h, w) — the group plays no part. -/
theorem weight_0 (x1 : (⟨S8x32x9x64x64, .f32⟩ : BufTy).Contents (Elt Ideal)) (b g : Fin 8) (c : Fin 32) (h w : Fin 64) :
    val_main_v7 (F := Ideal) x1 (ix5 b g c h w) = x1 (ix5 b c (0 : Fin 9) h w) := by
  have hb : b.val < 8 := b.isLt; have hg : g.val < 8 := g.isLt; have hc : c.val < 32 := c.isLt; have hh : h.val < 64 := h.isLt; have hw : w.val < 64 := w.isLt
  rw [val_main_v7_apply, val_main_v6_apply, val_main_v5_apply, val_main_v4_apply]
  refine congrArg x1 (funext fun a => Fin.ext ?_)
  match a with
  | ⟨0, _⟩ => show (((b.val * 32 + c.val) * 64 + h.val) * 64 + w.val) / 131072 = b.val; omega
  | ⟨1, _⟩ => show (((b.val * 32 + c.val) * 64 + h.val) * 64 + w.val) / 4096 % 32 = c.val; omega
  | ⟨2, _⟩ => rfl
  | ⟨3, _⟩ => show (((b.val * 32 + c.val) * 64 + h.val) * 64 + w.val) / 64 % 64 = h.val; omega
  | ⟨4, _⟩ => show (((b.val * 32 + c.val) * 64 + h.val) * 64 + w.val) % 64 = w.val; omega

/-- Tap 1 (neighbourhood row 0, column 1): the shifted window of the bordered input, regrouped into (group, channel),
    read at (b, g, c, h, w), is the bordered plane of channel 32·g + c at cell (h + 0, w + 1). -/
theorem patch_1 (x0 : (⟨S8x256x64x64, .f32⟩ : BufTy).Contents (Elt Ideal)) (b g : Fin 8) (c : Fin 32) (h w : Fin 64) :
    val_main_v11 (F := Ideal) x0 (ix5 b g c h w)
      = bordered (fun r' s' => x0 (ix4 b (groupedChannel g c) r' s')) (h.val + 0) (w.val + 1) := by
  have hb : b.val < 8 := b.isLt; have hg : g.val < 8 := g.isLt; have hc : c.val < 32 := c.isLt; have hh : h.val < 64 := h.isLt; have hw : w.val < 64 := w.isLt
  rw [val_main_v11_apply, val_main_v10_apply]
  have e : idx_main_v10 (idx_main_v11 (ix5 b g c h w))
      = ix4 b (groupedChannel g c) (⟨h.val + 0, by omega⟩ : Fin 66) (⟨w.val + 1, by omega⟩ : Fin 66) := by
    funext a
    apply Fin.ext
    match a with
    | ⟨0, _⟩ => show ((((b.val * 8 + g.val) * 32 + c.val) * 64 + h.val) * 64 + w.val) / 1048576 = b.val; omega
    | ⟨1, _⟩ => show ((((b.val * 8 + g.val) * 32 + c.val) * 64 + h.val) * 64 + w.val) / 4096 % 256 = g.val * 32 + c.val; omega
    | ⟨2, _⟩ => show ((((b.val * 8 + g.val) * 32 + c.val) * 64 + h.val) * 64 + w.val) / 64 % 64 = h.val + 0; omega
    | ⟨3, _⟩ => show 1 + ((((b.val * 8 + g.val) * 32 + c.val) * 64 + h.val) * 64 + w.val) % 64 = w.val + 1; omega
  rw [e]
  exact padded_apply x0 b (groupedChannel g c) _ _

/-- Tap 1's weights: slice 1 of the tap axis, dropped to [8, 32, 64, 64] and laid over the eight groups, read at
    (b, g, c, h, w), is the weight array at (b, c, 1, h, w) — the group plays no part. -/
theorem weight_1 (x1 : (⟨S8x32x9x64x64, .f32⟩ : BufTy).Contents (Elt Ideal)) (b g : Fin 8) (c : Fin 32) (h w : Fin 64) :
    val_main_v15 (F := Ideal) x1 (ix5 b g c h w) = x1 (ix5 b c (1 : Fin 9) h w) := by
  have hb : b.val < 8 := b.isLt; have hg : g.val < 8 := g.isLt; have hc : c.val < 32 := c.isLt; have hh : h.val < 64 := h.isLt; have hw : w.val < 64 := w.isLt
  rw [val_main_v15_apply, val_main_v14_apply, val_main_v13_apply, val_main_v12_apply]
  refine congrArg x1 (funext fun a => Fin.ext ?_)
  match a with
  | ⟨0, _⟩ => show (((b.val * 32 + c.val) * 64 + h.val) * 64 + w.val) / 131072 = b.val; omega
  | ⟨1, _⟩ => show (((b.val * 32 + c.val) * 64 + h.val) * 64 + w.val) / 4096 % 32 = c.val; omega
  | ⟨2, _⟩ => rfl
  | ⟨3, _⟩ => show (((b.val * 32 + c.val) * 64 + h.val) * 64 + w.val) / 64 % 64 = h.val; omega
  | ⟨4, _⟩ => show (((b.val * 32 + c.val) * 64 + h.val) * 64 + w.val) % 64 = w.val; omega

/-- Tap 2 (neighbourhood row 0, column 2): the shifted window of the bordered input, regrouped into (group, channel),
    read at (b, g, c, h, w), is the bordered plane of channel 32·g + c at cell (h + 0, w + 2). -/
theorem patch_2 (x0 : (⟨S8x256x64x64, .f32⟩ : BufTy).Contents (Elt Ideal)) (b g : Fin 8) (c : Fin 32) (h w : Fin 64) :
    val_main_v19 (F := Ideal) x0 (ix5 b g c h w)
      = bordered (fun r' s' => x0 (ix4 b (groupedChannel g c) r' s')) (h.val + 0) (w.val + 2) := by
  have hb : b.val < 8 := b.isLt; have hg : g.val < 8 := g.isLt; have hc : c.val < 32 := c.isLt; have hh : h.val < 64 := h.isLt; have hw : w.val < 64 := w.isLt
  rw [val_main_v19_apply, val_main_v18_apply]
  have e : idx_main_v18 (idx_main_v19 (ix5 b g c h w))
      = ix4 b (groupedChannel g c) (⟨h.val + 0, by omega⟩ : Fin 66) (⟨w.val + 2, by omega⟩ : Fin 66) := by
    funext a
    apply Fin.ext
    match a with
    | ⟨0, _⟩ => show ((((b.val * 8 + g.val) * 32 + c.val) * 64 + h.val) * 64 + w.val) / 1048576 = b.val; omega
    | ⟨1, _⟩ => show ((((b.val * 8 + g.val) * 32 + c.val) * 64 + h.val) * 64 + w.val) / 4096 % 256 = g.val * 32 + c.val; omega
    | ⟨2, _⟩ => show ((((b.val * 8 + g.val) * 32 + c.val) * 64 + h.val) * 64 + w.val) / 64 % 64 = h.val + 0; omega
    | ⟨3, _⟩ => show 2 + ((((b.val * 8 + g.val) * 32 + c.val) * 64 + h.val) * 64 + w.val) % 64 = w.val + 2; omega
  rw [e]
  exact padded_apply x0 b (groupedChannel g c) _ _

/-- Tap 2's weights: slice 2 of the tap axis, dropped to [8, 32, 64, 64] and laid over the eight groups, read at
    (b, g, c, h, w), is the weight array at (b, c, 2, h, w) — the group plays no part. -/
theorem weight_2 (x1 : (⟨S8x32x9x64x64, .f32⟩ : BufTy).Contents (Elt Ideal)) (b g : Fin 8) (c : Fin 32) (h w : Fin 64) :
    val_main_v23 (F := Ideal) x1 (ix5 b g c h w) = x1 (ix5 b c (2 : Fin 9) h w) := by
  have hb : b.val < 8 := b.isLt; have hg : g.val < 8 := g.isLt; have hc : c.val < 32 := c.isLt; have hh : h.val < 64 := h.isLt; have hw : w.val < 64 := w.isLt
  rw [val_main_v23_apply, val_main_v22_apply, val_main_v21_apply, val_main_v20_apply]
  refine congrArg x1 (funext fun a => Fin.ext ?_)
  match a with
  | ⟨0, _⟩ => show (((b.val * 32 + c.val) * 64 + h.val) * 64 + w.val) / 131072 = b.val; omega
  | ⟨1, _⟩ => show (((b.val * 32 + c.val) * 64 + h.val) * 64 + w.val) / 4096 % 32 = c.val; omega
  | ⟨2, _⟩ => rfl
  | ⟨3, _⟩ => show (((b.val * 32 + c.val) * 64 + h.val) * 64 + w.val) / 64 % 64 = h.val; omega
  | ⟨4, _⟩ => show (((b.val * 32 + c.val) * 64 + h.val) * 64 + w.val) % 64 = w.val; omega

/-- Tap 3 (neighbourhood row 1, column 0): the shifted window of the bordered input, regrouped into (group, channel),
    read at (b, g, c, h, w), is the bordered plane of channel 32·g + c at cell (h + 1, w + 0). -/
theorem patch_3 (x0 : (⟨S8x256x64x64, .f32⟩ : BufTy).Contents (Elt Ideal)) (b g : Fin 8) (c : Fin 32) (h w : Fin 64) :
    val_main_v27 (F := Ideal) x0 (ix5 b g c h w)
      = bordered (fun r' s' => x0 (ix4 b (groupedChannel g c) r' s')) (h.val + 1) (w.val + 0) := by
  have hb : b.val < 8 := b.isLt; have hg : g.val < 8 := g.isLt; have hc : c.val < 32 := c.isLt; have hh : h.val < 64 := h.isLt; have hw : w.val < 64 := w.isLt
  rw [val_main_v27_apply, val_main_v26_apply]
  have e : idx_main_v26 (idx_main_v27 (ix5 b g c h w))
      = ix4 b (groupedChannel g c) (⟨h.val + 1, by omega⟩ : Fin 66) (⟨w.val + 0, by omega⟩ : Fin 66) := by
    funext a
    apply Fin.ext
    match a with
    | ⟨0, _⟩ => show ((((b.val * 8 + g.val) * 32 + c.val) * 64 + h.val) * 64 + w.val) / 1048576 = b.val; omega
    | ⟨1, _⟩ => show ((((b.val * 8 + g.val) * 32 + c.val) * 64 + h.val) * 64 + w.val) / 4096 % 256 = g.val * 32 + c.val; omega
    | ⟨2, _⟩ => show 1 + ((((b.val * 8 + g.val) * 32 + c.val) * 64 + h.val) * 64 + w.val) / 64 % 64 = h.val + 1; omega
    | ⟨3, _⟩ => show ((((b.val * 8 + g.val) * 32 + c.val) * 64 + h.val) * 64 + w.val) % 64 = w.val + 0; omega
  rw [e]
  exact padded_apply x0 b (groupedChannel g c) _ _

/-- Tap 3's weights: slice 3 of the tap axis, dropped to [8, 32, 64, 64] and laid over the eight groups, read at
    (b, g, c, h, w), is the weight array at (b, c, 3, h, w) — the group plays no part. -/
theorem weight_3 (x1 : (⟨S8x32x9x64x64, .f32⟩ : BufTy).Contents (Elt Ideal)) (b g : Fin 8) (c : Fin 32) (h w : Fin 64) :
    val_main_v31 (F := Ideal) x1 (ix5 b g c h w) = x1 (ix5 b c (3 : Fin 9) h w) := by
  have hb : b.val < 8 := b.isLt; have hg : g.val < 8 := g.isLt; have hc : c.val < 32 := c.isLt; have hh : h.val < 64 := h.isLt; have hw : w.val < 64 := w.isLt
  rw [val_main_v31_apply, val_main_v30_apply, val_main_v29_apply, val_main_v28_apply]
  refine congrArg x1 (funext fun a => Fin.ext ?_)
  match a with
  | ⟨0, _⟩ => show (((b.val * 32 + c.val) * 64 + h.val) * 64 + w.val) / 131072 = b.val; omega
  | ⟨1, _⟩ => show (((b.val * 32 + c.val) * 64 + h.val) * 64 + w.val) / 4096 % 32 = c.val; omega
  | ⟨2, _⟩ => rfl
  | ⟨3, _⟩ => show (((b.val * 32 + c.val) * 64 + h.val) * 64 + w.val) / 64 % 64 = h.val; omega
  | ⟨4, _⟩ => show (((b.val * 32 + c.val) * 64 + h.val) * 64 + w.val) % 64 = w.val; omega

/-- Tap 4 (neighbourhood row 1, column 1): the shifted window of the bordered input, regrouped into (group, channel),
    read at (b, g, c, h, w), is the bordered plane of channel 32·g + c at cell (h + 1, w + 1). -/
theorem patch_4 (x0 : (⟨S8x256x64x64, .f32⟩ : BufTy).Contents (Elt Ideal)) (b g : Fin 8) (c : Fin 32) (h w : Fin 64) :
    val_main_v35 (F := Ideal) x0 (ix5 b g c h w)
      = bordered (fun r' s' => x0 (ix4 b (groupedChannel g c) r' s')) (h.val + 1) (w.val + 1) := by
  have hb : b.val < 8 := b.isLt; have hg : g.val < 8 := g.isLt; have hc : c.val < 32 := c.isLt; have hh : h.val < 64 := h.isLt; have hw : w.val < 64 := w.isLt
  rw [val_main_v35_apply, val_main_v34_apply]
  have e : idx_main_v34 (idx_main_v35 (ix5 b g c h w))
      = ix4 b (groupedChannel g c) (⟨h.val + 1, by omega⟩ : Fin 66) (⟨w.val + 1, by omega⟩ : Fin 66) := by
    funext a
    apply Fin.ext
    match a with
    | ⟨0, _⟩ => show ((((b.val * 8 + g.val) * 32 + c.val) * 64 + h.val) * 64 + w.val) / 1048576 = b.val; omega
    | ⟨1, _⟩ => show ((((b.val * 8 + g.val) * 32 + c.val) * 64 + h.val) * 64 + w.val) / 4096 % 256 = g.val * 32 + c.val; omega
    | ⟨2, _⟩ => show 1 + ((((b.val * 8 + g.val) * 32 + c.val) * 64 + h.val) * 64 + w.val) / 64 % 64 = h.val + 1; omega
    | ⟨3, _⟩ => show 1 + ((((b.val * 8 + g.val) * 32 + c.val) * 64 + h.val) * 64 + w.val) % 64 = w.val + 1; omega
  rw [e]
  exact padded_apply x0 b (groupedChannel g c) _ _

/-- Tap 4's weights: slice 4 of the tap axis, dropped to [8, 32, 64, 64] and laid over the eight groups, read at
    (b, g, c, h, w), is the weight array at (b, c, 4, h, w) — the group plays no part. -/
theorem weight_4 (x1 : (⟨S8x32x9x64x64, .f32⟩ : BufTy).Contents (Elt Ideal)) (b g : Fin 8) (c : Fin 32) (h w : Fin 64) :
    val_main_v39 (F := Ideal) x1 (ix5 b g c h w) = x1 (ix5 b c (4 : Fin 9) h w) := by
  have hb : b.val < 8 := b.isLt; have hg : g.val < 8 := g.isLt; have hc : c.val < 32 := c.isLt; have hh : h.val < 64 := h.isLt; have hw : w.val < 64 := w.isLt
  rw [val_main_v39_apply, val_main_v38_apply, val_main_v37_apply, val_main_v36_apply]
  refine congrArg x1 (funext fun a => Fin.ext ?_)
  match a with
  | ⟨0, _⟩ => show (((b.val * 32 + c.val) * 64 + h.val) * 64 + w.val) / 131072 = b.val; omega
  | ⟨1, _⟩ => show (((b.val * 32 + c.val) * 64 + h.val) * 64 + w.val) / 4096 % 32 = c.val; omega
  | ⟨2, _⟩ => rfl
  | ⟨3, _⟩ => show (((b.val * 32 + c.val) * 64 + h.val) * 64 + w.val) / 64 % 64 = h.val; omega
  | ⟨4, _⟩ => show (((b.val * 32 + c.val) * 64 + h.val) * 64 + w.val) % 64 = w.val; omega

/-- Tap 5 (neighbourhood row 1, column 2): the shifted window of the bordered input, regrouped into (group, channel),
    read at (b, g, c, h, w), is the bordered plane of channel 32·g + c at cell (h + 1, w + 2). -/
theorem patch_5 (x0 : (⟨S8x256x64x64, .f32⟩ : BufTy).Contents (Elt Ideal)) (b g : Fin 8) (c : Fin 32) (h w : Fin 64) :
    val_main_v43 (F := Ideal) x0 (ix5 b g c h w)
      = bordered (fun r' s' => x0 (ix4 b (groupedChannel g c) r' s')) (h.val + 1) (w.val + 2) := by
  have hb : b.val < 8 := b.isLt; have hg : g.val < 8 := g.isLt; have hc : c.val < 32 := c.isLt; have hh : h.val < 64 := h.isLt; have hw : w.val < 64 := w.isLt
  rw [val_main_v43_apply, val_main_v42_apply]
  have e : idx_main_v42 (idx_main_v43 (ix5 b g c h w))
      = ix4 b (groupedChannel g c) (⟨h.val + 1, by omega⟩ : Fin 66) (⟨w.val + 2, by omega⟩ : Fin 66) := by
    funext a
    apply Fin.ext
    match a with
    | ⟨0, _⟩ => show ((((b.val * 8 + g.val) * 32 + c.val) * 64 + h.val) * 64 + w.val) / 1048576 = b.val; omega
    | ⟨1, _⟩ => show ((((b.val * 8 + g.val) * 32 + c.val) * 64 + h.val) * 64 + w.val) / 4096 % 256 = g.val * 32 + c.val; omega
    | ⟨2, _⟩ => show 1 + ((((b.val * 8 + g.val) * 32 + c.val) * 64 + h.val) * 64 + w.val) / 64 % 64 = h.val + 1; omega
    | ⟨3, _⟩ => show 2 + ((((b.val * 8 + g.val) * 32 + c.val) * 64 + h.val) * 64 + w.val) % 64 = w.val + 2; omega
  rw [e]
  exact padded_apply x0 b (groupedChannel g c) _ _

/-- Tap 5's weights: slice 5 of the tap axis, dropped to [8, 32, 64, 64] and laid over the eight groups, read at
    (b, g, c, h, w), is the weight array at (b, c, 5, h, w) — the group plays no part. -/
theorem weight_5 (x1 : (⟨S8x32x9x64x64, .f32⟩ : BufTy).Contents (Elt Ideal)) (b g : Fin 8) (c : Fin 32) (h w : Fin 64) :
    val_main_v47 (F := Ideal) x1 (ix5 b g c h w) = x1 (ix5 b c (5 : Fin 9) h w) := by
  have hb : b.val < 8 := b.isLt; have hg : g.val < 8 := g.isLt; have hc : c.val < 32 := c.isLt; have hh : h.val < 64 := h.isLt; have hw : w.val < 64 := w.isLt
  rw [val_main_v47_apply, val_main_v46_apply, val_main_v45_apply, val_main_v44_apply]
  refine congrArg x1 (funext fun a => Fin.ext ?_)
  match a with
  | ⟨0, _⟩ => show (((b.val * 32 + c.val) * 64 + h.val) * 64 + w.val) / 131072 = b.val; omega
  | ⟨1, _⟩ => show (((b.val * 32 + c.val) * 64 + h.val) * 64 + w.val) / 4096 % 32 = c.val; omega
  | ⟨2, _⟩ => rfl
  | ⟨3, _⟩ => show (((b.val * 32 + c.val) * 64 + h.val) * 64 + w.val) / 64 % 64 = h.val; omega
  | ⟨4, _⟩ => show (((b.val * 32 + c.val) * 64 + h.val) * 64 + w.val) % 64 = w.val; omega

/-- Tap 6 (neighbourhood row 2, column 0): the shifted window of the bordered input, regrouped into (group, channel),
    read at (b, g, c, h, w), is the bordered plane of channel 32·g + c at cell (h + 2, w + 0). -/
theorem patch_6 (x0 : (⟨S8x256x64x64, .f32⟩ : BufTy).Contents (Elt Ideal)) (b g : Fin 8) (c : Fin 32) (h w : Fin 64) :
    val_main_v51 (F := Ideal) x0 (ix5 b g c h w)
      = bordered (fun r' s' => x0 (ix4 b (groupedChannel g c) r' s')) (h.val + 2) (w.val + 0) := by
  have hb : b.val < 8 := b.isLt; have hg : g.val < 8 := g.isLt; have hc : c.val < 32 := c.isLt; have hh : h.val < 64 := h.isLt; have hw : w.val < 64 := w.isLt
  rw [val_main_v51_apply, val_main_v50_apply]
  have e : idx_main_v50 (idx_main_v51 (ix5 b g c h w))
      = ix4 b (groupedChannel g c) (⟨h.val + 2, by omega⟩ : Fin 66) (⟨w.val + 0, by omega⟩ : Fin 66) := by
    funext a
    apply Fin.ext
    match a with
    | ⟨0, _⟩ => show ((((b.val * 8 + g.val) * 32 + c.val) * 64 + h.val) * 64 + w.val) / 1048576 = b.val; omega
    | ⟨1, _⟩ => show ((((b.val * 8 + g.val) * 32 + c.val) * 64 + h.val) * 64 + w.val) / 4096 % 256 = g.val * 32 + c.val; omega
    | ⟨2, _⟩ => show 2 + ((((b.val * 8 + g.val) * 32 + c.val) * 64 + h.val) * 64 + w.val) / 64 % 64 = h.val + 2; omega
    | ⟨3, _⟩ => show ((((b.val * 8 + g.val) * 32 + c.val) * 64 + h.val) * 64 + w.val) % 64 = w.val + 0; omega
  rw [e]
  exact padded_apply x0 b (groupedChannel g c) _ _

/-- Tap 6's weights: slice 6 of the tap axis, dropped to [8, 32, 64, 64] and laid over the eight groups, read at
    (b, g, c, h, w), is the weight array at (b, c, 6, h, w) — the group plays no part. -/
theorem weight_6 (x1 : (⟨S8x32x9x64x64, .f32⟩ : BufTy).Contents (Elt Ideal)) (b g : Fin 8) (c : Fin 32) (h w : Fin 64) :
    val_main_v55 (F := Ideal) x1 (ix5 b g c h w) = x1 (ix5 b c (6 : Fin 9) h w) := by
  have hb : b.val < 8 := b.isLt; have hg : g.val < 8 := g.isLt; have hc : c.val < 32 := c.isLt; have hh : h.val < 64 := h.isLt; have hw : w.val < 64 := w.isLt
  rw [val_main_v55_apply, val_main_v54_apply, val_main_v53_apply, val_main_v52_apply]
  refine congrArg x1 (funext fun a => Fin.ext ?_)
  match a with
  | ⟨0, _⟩ => show (((b.val * 32 + c.val) * 64 + h.val) * 64 + w.val) / 131072 = b.val; omega
  | ⟨1, _⟩ => show (((b.val * 32 + c.val) * 64 + h.val) * 64 + w.val) / 4096 % 32 = c.val; omega
  | ⟨2, _⟩ => rfl
  | ⟨3, _⟩ => show (((b.val * 32 + c.val) * 64 + h.val) * 64 + w.val) / 64 % 64 = h.val; omega
  | ⟨4, _⟩ => show (((b.val * 32 + c.val) * 64 + h.val) * 64 + w.val) % 64 = w.val; omega

/-- Tap 7 (neighbourhood row 2, column 1): the shifted window of the bordered input, regrouped into (group, channel),
    read at (b, g, c, h, w), is the bordered plane of channel 32·g + c at cell (h + 2, w + 1). -/
theorem patch_7 (x0 : (⟨S8x256x64x64, .f32⟩ : BufTy).Contents (Elt Ideal)) (b g : Fin 8) (c : Fin 32) (h w : Fin 64) :
    val_main_v59 (F := Ideal) x0 (ix5 b g c h w)
      = bordered (fun r' s' => x0 (ix4 b (groupedChannel g c) r' s')) (h.val + 2) (w.val + 1) := by
  have hb : b.val < 8 := b.isLt; have hg : g.val < 8 := g.isLt; have hc : c.val < 32 := c.isLt; have hh : h.val < 64 := h.isLt; have hw : w.val < 64 := w.isLt
  rw [val_main_v59_apply, val_main_v58_apply]
  have e : idx_main_v58 (idx_main_v59 (ix5 b g c h w))
      = ix4 b (groupedChannel g c) (⟨h.val + 2, by omega⟩ : Fin 66) (⟨w.val + 1, by omega⟩ : Fin 66) := by
    funext a
    apply Fin.ext
    match a with
    | ⟨0, _⟩ => show ((((b.val * 8 + g.val) * 32 + c.val) * 64 + h.val) * 64 + w.val) / 1048576 = b.val; omega
    | ⟨1, _⟩ => show ((((b.val * 8 + g.val) * 32 + c.val) * 64 + h.val) * 64 + w.val) / 4096 % 256 = g.val * 32 + c.val; omega
    | ⟨2, _⟩ => show 2 + ((((b.val * 8 + g.val) * 32 + c.val) * 64 + h.val) * 64 + w.val) / 64 % 64 = h.val + 2; omega
    | ⟨3, _⟩ => show 1 + ((((b.val * 8 + g.val) * 32 + c.val) * 64 + h.val) * 64 + w.val) % 64 = w.val + 1; omega
  rw [e]
  exact padded_apply x0 b (groupedChannel g c) _ _

/-- Tap 7's weights: slice 7 of the tap axis, dropped to [8, 32, 64, 64] and laid over the eight groups, read at
    (b, g, c, h, w), is the weight array at (b, c, 7, h, w) — the group plays no part. -/
theorem weight_7 (x1 : (⟨S8x32x9x64x64, .f32⟩ : BufTy).Contents (Elt Ideal)) (b g : Fin 8) (c : Fin 32) (h w : Fin 64) :
    val_main_v63 (F := Ideal) x1 (ix5 b g c h w) = x1 (ix5 b c (7 : Fin 9) h w) := by
  have hb : b.val < 8 := b.isLt; have hg : g.val < 8 := g.isLt; have hc : c.val < 32 := c.isLt; have hh : h.val < 64 := h.isLt; have hw : w.val < 64 := w.isLt
  rw [val_main_v63_apply, val_main_v62_apply, val_main_v61_apply, val_main_v60_apply]
  refine congrArg x1 (funext fun a => Fin.ext ?_)
  match a with
  | ⟨0, _⟩ => show (((b.val * 32 + c.val) * 64 + h.val) * 64 + w.val) / 131072 = b.val; omega
  | ⟨1, _⟩ => show (((b.val * 32 + c.val) * 64 + h.val) * 64 + w.val) / 4096 % 32 = c.val; omega
  | ⟨2, _⟩ => rfl
  | ⟨3, _⟩ => show (((b.val * 32 + c.val) * 64 + h.val) * 64 + w.val) / 64 % 64 = h.val; omega
  | ⟨4, _⟩ => show (((b.val * 32 + c.val) * 64 + h.val) * 64 + w.val) % 64 = w.val; omega

/-- Tap 8 (neighbourhood row 2, column 2): the shifted window of the bordered input, regrouped into (group, channel),
    read at (b, g, c, h, w), is the bordered plane of channel 32·g + c at cell (h + 2, w + 2). -/
theorem patch_8 (x0 : (⟨S8x256x64x64, .f32⟩ : BufTy).Contents (Elt Ideal)) (b g : Fin 8) (c : Fin 32) (h w : Fin 64) :
    val_main_v67 (F := Ideal) x0 (ix5 b g c h w)
      = bordered (fun r' s' => x0 (ix4 b (groupedChannel g c) r' s')) (h.val + 2) (w.val + 2) := by
  have hb : b.val < 8 := b.isLt; have hg : g.val < 8 := g.isLt; have hc : c.val < 32 := c.isLt; have hh : h.val < 64 := h.isLt; have hw : w.val < 64 := w.isLt
  rw [val_main_v67_apply, val_main_v66_apply]
  have e : idx_main_v66 (idx_main_v67 (ix5 b g c h w))
      = ix4 b (groupedChannel g c) (⟨h.val + 2, by omega⟩ : Fin 66) (⟨w.val + 2, by omega⟩ : Fin 66) := by
    funext a
    apply Fin.ext
    match a with
    | ⟨0, _⟩ => show ((((b.val * 8 + g.val) * 32 + c.val) * 64 + h.val) * 64 + w.val) / 1048576 = b.val; omega
    | ⟨1, _⟩ => show ((((b.val * 8 + g.val) * 32 + c.val) * 64 + h.val) * 64 + w.val) / 4096 % 256 = g.val * 32 + c.val; omega
    | ⟨2, _⟩ => show 2 + ((((b.val * 8 + g.val) * 32 + c.val) * 64 + h.val) * 64 + w.val) / 64 % 64 = h.val + 2; omega
    | ⟨3, _⟩ => show 2 + ((((b.val * 8 + g.val) * 32 + c.val) * 64 + h.val) * 64 + w.val) % 64 = w.val + 2; omega
  rw [e]
  exact padded_apply x0 b (groupedChannel g c) _ _

/-- Tap 8's weights: slice 8 of the tap axis, dropped to [8, 32, 64, 64] and laid over the eight groups, read at
    (b, g, c, h, w), is the weight array at (b, c, 8, h, w) — the group plays no part. -/
theorem weight_8 (x1 : (⟨S8x32x9x64x64, .f32⟩ : BufTy).Contents (Elt Ideal)) (b g : Fin 8) (c : Fin 32) (h w : Fin 64) :
    val_main_v71 (F := Ideal) x1 (ix5 b g c h w) = x1 (ix5 b c (8 : Fin 9) h w) := by
  have hb : b.val < 8 := b.isLt; have hg : g.val < 8 := g.isLt; have hc : c.val < 32 := c.isLt; have hh : h.val < 64 := h.isLt; have hw : w.val < 64 := w.isLt
  rw [val_main_v71_apply, val_main_v70_apply, val_main_v69_apply, val_main_v68_apply]
  refine congrArg x1 (funext fun a => Fin.ext ?_)
  match a with
  | ⟨0, _⟩ => show (((b.val * 32 + c.val) * 64 + h.val) * 64 + w.val) / 131072 = b.val; omega
  | ⟨1, _⟩ => show (((b.val * 32 + c.val) * 64 + h.val) * 64 + w.val) / 4096 % 32 = c.val; omega
  | ⟨2, _⟩ => rfl
  | ⟨3, _⟩ => show (((b.val * 32 + c.val) * 64 + h.val) * 64 + w.val) / 64 % 64 = h.val; omega
  | ⟨4, _⟩ => show (((b.val * 32 + c.val) * 64 + h.val) * 64 + w.val) % 64 = w.val; omega

/-- The running sum after the ninth tap, at (b, g, c, h, w): the nine-tap sum of plane (b, 32·g + c) with the weights
    `x1[b, c, ·, h, w]`, the additions in the reference's own order, from the zero it starts with. -/
theorem sum_apply (x0 : (⟨S8x256x64x64, .f32⟩ : BufTy).Contents (Elt Ideal)) (x1 : (⟨S8x32x9x64x64, .f32⟩ : BufTy).Contents (Elt Ideal))
    (b g : Fin 8) (c : Fin 32) (h w : Fin 64) :
    val_main_v73 (F := Ideal) x0 x1 (ix5 b g c h w)
      = taps (fun r' s' => x0 (ix4 b (groupedChannel g c) r' s')) (fun k => x1 (ix5 b c k h w)) h w := by
  rw [val_main_v73_apply,
    val_main_v72_apply,
    patch_8,
    weight_8,
    val_main_v65_apply,
    val_main_v64_apply,
    patch_7,
    weight_7,
    val_main_v57_apply,
    val_main_v56_apply,
    patch_6,
    weight_6,
    val_main_v49_apply,
    val_main_v48_apply,
    patch_5,
    weight_5,
    val_main_v41_apply,
    val_main_v40_apply,
    patch_4,
    weight_4,
    val_main_v33_apply,
    val_main_v32_apply,
    patch_3,
    weight_3,
    val_main_v25_apply,
    val_main_v24_apply,
    patch_2,
    weight_2,
    val_main_v17_apply,
    val_main_v16_apply,
    patch_1,
    weight_1,
    val_main_v9_apply,
    val_main_v8_apply,
    patch_0,
    weight_0,
    val_main_v1_apply,
    val_main_cst_apply]
  unfold taps
  rw [show (FloatOps.ofBits (F := Ideal) .f32 0x00000000#32) = (0 : EReal) from Ideal.ofBits_zero_f32]
  rfl

/-- The reference's result array is the bordered nine-tap sum of its two arguments. -/
theorem reference_eq (x0 : (⟨S8x256x64x64, .f32⟩ : BufTy).Contents (Elt Ideal)) (x1 : (⟨S8x32x9x64x64, .f32⟩ : BufTy).Contents (Elt Ideal)) :
    val_main_v74 (F := Ideal) x0 x1 = result x0 x1 := by
  funext i
  obtain ⟨b, ch, h, w, rfl⟩ : ∃ (b : Fin 8) (ch : Fin 256) (h w : Fin 64), i = ix4 b ch h w := ⟨i 0, i 1, i 2, i 3, eq_ix4 i⟩
  have hb : b.val < 8 := b.isLt
  have hch : ch.val < 256 := ch.isLt
  have hh : h.val < 64 := h.isLt
  have hw : w.val < 64 := w.isLt
  rw [val_main_v74_apply, result_apply]
  have e : idx_main_v74 (ix4 b ch h w) = ix5 b (⟨ch.val / 32, by omega⟩ : Fin 8) (groupChannel ch) h w := by
    funext a
    apply Fin.ext
    match a with
    | ⟨0, _⟩ => show (((b.val * 256 + ch.val) * 64 + h.val) * 64 + w.val) / 1048576 = b.val; omega
    | ⟨1, _⟩ => show (((b.val * 256 + ch.val) * 64 + h.val) * 64 + w.val) / 131072 % 8 = ch.val / 32; omega
    | ⟨2, _⟩ => show (((b.val * 256 + ch.val) * 64 + h.val) * 64 + w.val) / 4096 % 32 = ch.val % 32; omega
    | ⟨3, _⟩ => show (((b.val * 256 + ch.val) * 64 + h.val) * 64 + w.val) / 64 % 64 = h.val; omega
    | ⟨4, _⟩ => show (((b.val * 256 + ch.val) * 64 + h.val) * 64 + w.val) % 64 = w.val; omega
  rw [e, sum_apply]
  have ech : groupedChannel (⟨ch.val / 32, by omega⟩ : Fin 8) (groupChannel ch) = ch :=
    Fin.ext (by show ch.val / 32 * 32 + ch.val % 32 = ch.val; omega)
  rw [ech]

end Cert.ReferenceIdeal.Taps

end
-- ==== Proof.lean ====
/-
  The kernel and its reference compute the same per-pixel 3×3 weighted sum.

  Inputs: x[8, 256, 64, 64] (batch, channel, row, column) and weights w[8, 32, 9, 64, 64] (batch, channel within a
  group, tap, row, column); the 256 channels are 8 groups of 32 that share the weights.  Surround every 64×64 plane of x
  with a border of zeros one cell wide and call B the bordered plane.  Both programs produce, at (b, ch, h, v),

      0 + B(h, v)·w₀ + B(h, v+1)·w₁ + B(h, v+2)·w₂ + B(h+1, v)·w₃ + … + B(h+2, v+2)·w₈,    wₖ = w[b, ch mod 32, k, h, v],

  over the extended reals, with the additions made left to right in this order (Proof/BorderedTaps.lean states it).

  The kernel runs on an 8 × 8 grid, one batch entry and one group of 32 channels per point.  At a point it zeroes a
  [32, 66, 66] scratch buffer, stores its input block into the interior, and accumulates the nine products of shifted
  windows of the scratch with the nine weight slabs, from a zero start (Proof/BlockTaps.lean reads this off the body:
  a scratch cell is B, a window at offset (a, b) read at (h, v) is B(h+a, v+b)).  The 64 output blocks tile the result
  array, and block (p, g) of the sum above is the block sum of the matching input blocks because (32·g + c) mod 32 = c
  (Proof/ArrayTaps.lean).  The reference pads x with zeros, and for each tap slices the padded array at the tap's
  offset, regroups the channels, multiplies by the tap's weights laid over the groups and adds, from a zero start,
  then merges the groups back (Proof/ReferenceTaps.lean reads it at an index).

  The two sides are the same expression — same products, same order of additions — so no law of arithmetic joins them
  and the finiteness of the inputs is never used.  The only values computed are zeros: the kernel's zero word and the
  reference's converted integer zero are both the real number 0.

  The three frame claims are the generated frame proofs (for the reference, its generated run with the result dropped);
  the idealization rewrote no operation of the kernel, so the preservation claim is `True`.
-/
import proofs.«134660_j44899588113058_1_alg».proof.Defs
import proofs.«134660_j44899588113058_1_alg».proof.Proof.Gen.Kernel
import proofs.«134660_j44899588113058_1_alg».proof.Proof.Gen.Kernel.Skeleton
import proofs.«134660_j44899588113058_1_alg».proof.Proof.Gen.Kernel.Launch
import proofs.«134660_j44899588113058_1_alg».proof.Proof.Gen.Kernel.Points
import proofs.«134660_j44899588113058_1_alg».proof.Proof.Gen.Kernel.Frame
import proofs.«134660_j44899588113058_1_alg».proof.Proof.Gen.KernelIdeal
import proofs.«134660_j44899588113058_1_alg».proof.Proof.Gen.KernelIdeal.Skeleton
import proofs.«134660_j44899588113058_1_alg».proof.Proof.Gen.KernelIdeal.Launch
import proofs.«134660_j44899588113058_1_alg».proof.Proof.Gen.KernelIdeal.Points
import proofs.«134660_j44899588113058_1_alg».proof.Proof.Gen.KernelIdeal.Frame
import proofs.«134660_j44899588113058_1_alg».proof.Proof.Gen.ReferenceIdeal
import proofs.«134660_j44899588113058_1_alg».proof.Proof.Gen.Pre_finite_inputs
import proofs.«134660_j44899588113058_1_alg».proof.Proof.Gen.KernelIdeal.Value
import proofs.«134660_j44899588113058_1_alg».proof.Proof.Gen.ReferenceIdeal.Run
import proofs.«134660_j44899588113058_1_alg».proof.Proof.Gen.ReferenceIdeal.Read
import proofs.«134660_j44899588113058_1_alg».proof.Proof.ArrayTaps
import proofs.«134660_j44899588113058_1_alg».proof.Proof.ReferenceTaps
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at the bordered nine-tap sum of
    the arguments: the kernel by its blocks, the reference by its operations read at an index. -/
theorem algebraic : Cert.algebraic_KernelIdeal_ReferenceIdeal := by
  intro m ρ m' ρ' _ hagree
  refine ⟨fun c => Cert.BorderedTaps.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Taps.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v74_eq, Cert.ReferenceIdeal.Taps.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
